-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x32 : Shape := ⟨2, ![2097152, 32]⟩
abbrev S2097152x3 : Shape := ⟨2, ![2097152, 3]⟩
abbrev S2097152 : Shape := ⟨1, ![2097152]⟩
abbrev S32x64 : Shape := ⟨2, ![32, 64]⟩
abbrev S64x64 : Shape := ⟨2, ![64, 64]⟩
abbrev S64x17 : Shape := ⟨2, ![64, 17]⟩
abbrev S18x64 : Shape := ⟨2, ![18, 64]⟩
abbrev S64x3 : Shape := ⟨2, ![64, 3]⟩
abbrev S_ : Shape := ⟨0, ![]⟩

class Facts : Prop where
  bcast_S_S2097152x32 : S_.BroadcastsInDim S2097152x32 (![] : Fin 0 → Fin S2097152x32.rank)
  reducesTo_S2097152x32_S_d0_1 : S2097152x32.ReducesTo [0, 1] S_
  h_S_ : 0 < S_.numel
  bcast_S_S2097152x3 : S_.BroadcastsInDim S2097152x3 (![] : Fin 0 → Fin S2097152x3.rank)
  reducesTo_S2097152x3_S_d0_1 : S2097152x3.ReducesTo [0, 1] S_
  bcast_S_S2097152 : S_.BroadcastsInDim S2097152 (![] : Fin 0 → Fin S2097152.rank)
  reducesTo_S2097152_S_d0 : S2097152.ReducesTo [0] S_
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64x17 : S_.BroadcastsInDim S64x17 (![] : Fin 0 → Fin S64x17.rank)
  reducesTo_S64x17_S_d0_1 : S64x17.ReducesTo [0, 1] S_
  bcast_S_S18x64 : S_.BroadcastsInDim S18x64 (![] : Fin 0 → Fin S18x64.rank)
  reducesTo_S18x64_S_d0_1 : S18x64.ReducesTo [0, 1] S_
  bcast_S_S64x3 : S_.BroadcastsInDim S64x3 (![] : Fin 0 → Fin S64x3.rank)
  reducesTo_S64x3_S_d0_1 : S64x3.ReducesTo [0, 1] S_

variable [Facts]

def fn_part2 {F : FTy → Type} [FloatOps F] (main_arg7 : FVec F S64x64 .f32) (main_arg8 : FVec F S64x64 .f32) (main_arg9 : FVec F S64x3 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x3 .f32 := Host.absf main_arg9
  let main_cst_16 : FVec F S_ .f32 := constant S_ .f32 0x7F800000#32
  let main_v45 : FVec F S64x3 .f32 := broadcastInDim S64x3 ![] bcast_S_S64x3 main_cst_16
  let main_v46 : IVec S64x3 1 := cmpf .olt main_v44 main_v45
  let main_c_17 : IVec S_ 1 := constantI S_ 1 1#1
  let main_v47 : IVec S_ 1 := (fun x v => Host.reduce IntOp.andi x v reducesTo_S64x3_S_d0_1 h_S_) main_v46 main_c_17
  let main_v48 : IVec S_ 1 := andi main_v43 main_v47
  main_v48

def fn_part1 {F : FTy → Type} [FloatOps F] (main_arg4 : FVec F S64x64 .f32) (main_arg5 : FVec F S64x17 .f32) (main_arg6 : FVec F S18x64 .f32) (main_arg7 : FVec F S64x64 .f32) (main_arg8 : FVec F S64x64 .f32) (main_arg9 : FVec F S64x3 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x17 .f32 := Host.absf main_arg5
  let main_cst_8 : FVec F S_ .f32 := constant S_ .f32 0x7F800000#32
  let main_v25 : FVec F S64x17 .f32 := broadcastInDim S64x17 ![] bcast_S_S64x17 main_cst_8
  let main_v26 : IVec S64x17 1 := cmpf .olt main_v24 main_v25
  let main_c_9 : IVec S_ 1 := constantI S_ 1 1#1
  let main_v27 : IVec S_ 1 := (fun x v => Host.reduce IntOp.andi x v reducesTo_S64x17_S_d0_1 h_S_) main_v26 main_c_9
  let main_v28 : IVec S_ 1 := andi main_v23 main_v27
  let main_v29 : FVec F S18x64 .f32 := Host.absf main_arg6
  let main_cst_10 : FVec F S_ .f32 := constant S_ .f32 0x7F800000#32
  let main_v30 : FVec F S18x64 .f32 := broadcastInDim S18x64 ![] bcast_S_S18x64 main_cst_10
  let main_v31 : IVec S18x64 1 := cmpf .olt main_v29 main_v30
  let main_c_11 : IVec S_ 1 := constantI S_ 1 1#1
  let main_v32 : IVec S_ 1 := (fun x v => Host.reduce IntOp.andi x v reducesTo_S18x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S2097152x32 .f32) (main_arg1 : FVec F S2097152x3 .f32) (main_arg2 : FVec F S2097152 .f32) (main_arg3 : FVec F S32x64 .f32) (main_arg4 : FVec F S64x64 .f32) (main_arg5 : FVec F S64x17 .f32) (main_arg6 : FVec F S18x64 .f32) (main_arg7 : FVec F S64x64 .f32) (main_arg8 : FVec F S64x64 .f32) (main_arg9 : FVec F S64x3 .f32) : IVec S_ 1 :=
  let main_v0 : FVec F S2097152x32 .f32 := Host.absf main_arg0
  let main_cst : FVec F S_ .f32 := constant S_ .f32 0x7F800000#32
  let main_v1 : FVec F S2097152x32 .f32 := broadcastInDim S2097152x32 ![] bcast_S_S2097152x32 main_cst
  let main_v2 : IVec S2097152x32 1 := cmpf .olt main_v0 main_v1
  let main_c : IVec S_ 1 := constantI S_ 1 1#1
  let main_v3 : IVec S_ 1 := (fun x v => Host.reduce IntOp.andi x v reducesTo_S2097152x32_S_d0_1 h_S_) main_v2 main_c
  let main_v4 : FVec F S2097152x3 .f32 := Host.absf main_arg1
  let main_cst_0 : FVec F S_ .f32 := constant S_ .f32 0x7F800000#32
  let main_v5 : FVec F S2097152x3 .f32 := broadcastInDim S2097152x3 ![] bcast_S_S2097152x3 main_cst_0
  let main_v6 : IVec S2097152x3 1 := cmpf .olt main_v4 main_v5
  let main_c_1 : IVec S_ 1 := constantI S_ 1 1#1
  let main_v7 : IVec S_ 1 := (fun x v => Host.reduce IntOp.andi x v reducesTo_S2097152x3_S_d0_1 h_S_) main_v6 main_c_1
  let main_v8 : IVec S_ 1 := andi main_v3 main_v7
  let main_v9 : FVec F S2097152 .f32 := Host.absf main_arg2
  let main_cst_2 : FVec F S_ .f32 := constant S_ .f32 0x7F800000#32
  let main_v10 : FVec F S2097152 .f32 := broadcastInDim S2097152 ![] bcast_S_S2097152 main_cst_2
  let main_v11 : IVec S2097152 1 := cmpf .olt main_v9 main_v10
  let main_c_3 : IVec S_ 1 := constantI S_ 1 1#1
  let main_v12 : IVec S_ 1 := (fun x v => Host.reduce IntOp.andi x v reducesTo_S2097152_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_arg9 main_v13 main_v16
-- ==== Kernel.lean ====
abbrev S2097152x32 : Shape := ⟨2, ![2097152, 32]⟩
abbrev S2097152x3 : Shape := ⟨2, ![2097152, 3]⟩
abbrev S2097152 : Shape := ⟨1, ![2097152]⟩
abbrev S32x64 : Shape := ⟨2, ![32, 64]⟩
abbrev S64x64 : Shape := ⟨2, ![64, 64]⟩
abbrev S64x17 : Shape := ⟨2, ![64, 17]⟩
abbrev S18x64 : Shape := ⟨2, ![18, 64]⟩
abbrev S64x3 : Shape := ⟨2, ![64, 3]⟩
abbrev S64x32 : Shape := ⟨2, ![64, 32]⟩
abbrev S64x1 : Shape := ⟨2, ![64, 1]⟩
abbrev S64x15 : Shape := ⟨2, ![64, 15]⟩
abbrev S15x64 : Shape := ⟨2, ![15, 64]⟩
abbrev S3x64 : Shape := ⟨2, ![3, 64]⟩
abbrev S1x2097152 : Shape := ⟨2, ![1, 2097152]⟩
abbrev S4x2097152 : Shape := ⟨2, ![4, 2097152]⟩
abbrev S4096x32 : Shape := ⟨2, ![4096, 32]⟩
abbrev S4096x3 : Shape := ⟨2, ![4096, 3]⟩
abbrev S1x4096 : Shape := ⟨2, ![1, 4096]⟩
abbrev S4x4096 : Shape := ⟨2, ![4, 4096]⟩
abbrev S32x4096 : Shape := ⟨2, ![32, 4096]⟩
abbrev S3x4096 : Shape := ⟨2, ![3, 4096]⟩
abbrev S64x4096 : Shape := ⟨2, ![64, 4096]⟩
abbrev S4096 : Shape := ⟨1, ![4096]⟩
abbrev S2097152x4 : Shape := ⟨2, ![2097152, 4]⟩

abbrev nBuf : Space → Nat
  | .hbm => 32
  | .vmem => 16
  | .smem => 0
  | _ => 0

abbrev bufTy : (tb : Table) → Fin (tcTables nBuf tb) → BufTy
  | .hbm, ⟨0, _⟩ => ⟨S2097152x32, .f32⟩
  | .hbm, ⟨1, _⟩ => ⟨S2097152x3, .f32⟩
  | .hbm, ⟨2, _⟩ => ⟨S2097152, .f32⟩
  | .hbm, ⟨3, _⟩ => ⟨S32x64, .f32⟩
  | .hbm, ⟨4, _⟩ => ⟨S64x64, .f32⟩
  | .hbm, ⟨5, _⟩ => ⟨S64x17, .f32⟩
  | .hbm, ⟨6, _⟩ => ⟨S18x64, .f32⟩
  | .hbm, ⟨7, _⟩ => ⟨S64x64, .f32⟩
  | .hbm, ⟨8, _⟩ => ⟨S64x64, .f32⟩
  | .hbm, ⟨9, _⟩ => ⟨S64x3, .f32⟩
  | .hbm, ⟨10, _⟩ => ⟨S64x32, .f32⟩
  | .hbm, ⟨11, _⟩ => ⟨S64x32, .bf16⟩
  | .hbm, ⟨12, _⟩ => ⟨S64x64, .f32⟩
  | .hbm, ⟨13, _⟩ => ⟨S64x64, .bf16⟩
  | .hbm, ⟨14, _⟩ => ⟨S64x1, .f32⟩
  | .hbm, ⟨15, _⟩ => ⟨S64x15, .f32⟩
  | .hbm, ⟨16, _⟩ => ⟨S15x64, .f32⟩
  | .hbm, ⟨17, _⟩ => ⟨S64x64, .f32⟩
  | .hbm, ⟨18, _⟩ => ⟨S64x64, .f32⟩
  | .hbm, ⟨19, _⟩ => ⟨S64x64, .bf16⟩
  | .hbm, ⟨20, _⟩ => ⟨S3x64, .f32⟩
  | .hbm, ⟨21, _⟩ => ⟨S64x3, .f32⟩
  | .hbm, ⟨22, _⟩ => ⟨S64x3, .bf16⟩
  | .hbm, ⟨23, _⟩ => ⟨S64x64, .f32⟩
  | .hbm, ⟨24, _⟩ => ⟨S64x64, .bf16⟩
  | .hbm, ⟨25, _⟩ => ⟨S64x64, .f32⟩
  | .hbm, ⟨26, _⟩ => ⟨S64x64, .bf16⟩
  | .hbm, ⟨27, _⟩ => ⟨S3x64, .f32⟩
  | .hbm, ⟨28, _⟩ => ⟨S3x64, .bf16⟩
  | .hbm, ⟨29, _⟩ => ⟨S1x2097152, .f32⟩
  | .hbm, ⟨30, _⟩ => ⟨S4x2097152, .f32⟩
  | .hbm, ⟨31, _⟩ => ⟨S2097152x4, .f32⟩
  | .local _ .vmem, ⟨0, _⟩ => ⟨S4096x32, .f32⟩
  | .local _ .vmem, ⟨1, _⟩ => ⟨S4096x32, .f32⟩
  | .local _ .vmem, ⟨2, _⟩ => ⟨S4096x3, .f32⟩
  | .local _ .vmem, ⟨3, _⟩ => ⟨S4096x3, .f32⟩
  | .local _ .vmem, ⟨4, _⟩ => ⟨S1x4096, .f32⟩
  | .local _ .vmem, ⟨5, _⟩ => ⟨S1x4096, .f32⟩
  | .local _ .vmem, ⟨6, _⟩ => ⟨S64x32, .bf16⟩
  | .local _ .vmem, ⟨7, _⟩ => ⟨S64x64, .bf16⟩
  | .local _ .vmem, ⟨8, _⟩ => ⟨S64x1, .f32⟩
  | .local _ .vmem, ⟨9, _⟩ => ⟨S64x64, .bf16⟩
  | .local _ .vmem, ⟨10, _⟩ => ⟨S64x3, .bf16⟩
  | .local _ .vmem, ⟨11, _⟩ => ⟨S64x64, .bf16⟩
  | .local _ .vmem, ⟨12, _⟩ => ⟨S64x64, .bf16⟩
  | .local _ .vmem, ⟨13, _⟩ => ⟨S3x64, .bf16⟩
  | .local _ .vmem, ⟨14, _⟩ => ⟨S4x4096, .f32⟩
  | .local _ .vmem, ⟨15, _⟩ => ⟨S4x4096, .f32⟩
  | _, _ => ⟨S2097152x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x3 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S32x64_S64x32_1_0 : S32x64.Transposes [1, 0] S64x32
  bitsLt_bf16_f32 : FTy.bits .bf16 < FTy.bits .f32
  transposes_S64x64_S64x64_1_0 : S64x64.Transposes [1, 0] S64x64
  slices_S64x17_S64x1_0_0 : S64x17.Slices ![0, 0] S64x1
  slices_S64x17_S64x15_0_2 : S64x17.Slices ![0, 2] S64x15
  slices_S18x64_S15x64_3_0 : S18x64.Slices ![3, 0] S15x64
  slices_S18x64_S3x64_0_0 : S18x64.Slices ![0, 0] S3x64
  transposes_S3x64_S64x3_1_0 : S3x64.Transposes [1, 0] S64x3
  transposes_S64x3_S3x64_1_0 : S64x3.Transposes [1, 0] S3x64
  shapeCasts_S2097152_S1x2097152 : S2097152.ShapeCasts S1x2097152
  inb_S4096x32_S4096x32_0_0 : ∀ a, (![0, 0] : Fin 2 → Nat) a + S4096x32.size a ≤ S4096x32.size a
  h_S4096x32 : 0 < S4096x32.numel
  transposes_S4096x32_p1_0_S32x4096 : S4096x32.Transposes [1, 0] S32x4096
  inb_S4096x3_S4096x3_0_0 : ∀ a, (![0, 0] : Fin 2 → Nat) a + S4096x3.size a ≤ S4096x3.size a
  h_S4096x3 : 0 < S4096x3.numel
  transposes_S4096x3_p1_0_S3x4096 : S4096x3.Transposes [1, 0] S3x4096
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  reduces_S64x4096_S4096 : S64x4096.Reduces [0] S4096
  shapeCasts_S4096_S1x4096 : S4096.ShapeCasts S1x4096
  inb_S64x3_S64x3_0_0 : ∀ a, (![0, 0] : Fin 2 → Nat) a + S64x3.size a ≤ S64x3.size a
  h_S64x3 : 0 < S64x3.numel
  shapeCasts_S64x3_S64x3 : S64x3.ShapeCasts S64x3
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S3x4096 : S1x4096.Broadcasts S3x4096
  concatenates_S3x4096_S1x4096_S4x4096_d0 : Shape.Concatenates [S3x4096, S1x4096] S4x4096 0
  inb_S4x4096_S4x4096_0_0 : ∀ a, (![0, 0] : Fin 2 → Nat) a + S4x4096.size a ≤ S4x4096.size a
  h_S4x4096 : 0 < S4x4096.numel
  transposes_S4x2097152_S2097152x4_1_0 : S4x2097152.Transposes [1, 0] S2097152x4
  dot_S64x15_S15x64_S64x64_1_0_0_1_n_n_wf : DotDims.WF S64x15 S15x64 S64x64 [1] [0] [0] [1] [] []
  dot_S64x32_S32x4096_S64x4096_1_0_0_1_n_n_wf : DotDims.WF S64x32 S32x4096 S64x4096 [1] [0] [0] [1] [] []
  dot_S64x64_S64x4096_S64x4096_1_0_0_1_n_n_wf : DotDims.WF S64x64 S64x4096 S64x4096 [1] [0] [0] [1] [] []
  dot_S64x3_S3x4096_S64x4096_1_0_0_1_n_n_wf : DotDims.WF S64x3 S3x4096 S64x4096 [1] [0] [0] [1] [] []
  dot_S3x64_S64x4096_S3x4096_1_0_0_1_n_n_wf : DotDims.WF S3x64 S64x4096 S3x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S2097152x32.size a
  hwx0_0 : ∀ i : grid0.Coords, EltTy.bits .f32 = 32 ∨ (Rect.block (s := S2097152x32) S4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x3.size a ≤ S2097152x3.size a
  hwx0_1 : ∀ i : grid0.Coords, EltTy.bits .f32 = 32 ∨ (Rect.block (s := S2097152x3) S4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x2097152.size a
  hwx0_2 : ∀ i : grid0.Coords, EltTy.bits .f32 = 32 ∨ (Rect.block (s := S1x2097152) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .bf16 = 32 ∨ (Rect.block (s := S64x32) S64x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x3.size a ≤ S64x3.size a
  hwx0_7 : ∀ i : grid0.Coords, EltTy.bits .bf16 = 32 ∨ (Rect.block (s := S64x3) S64x3.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .bf16 = 32 ∨ (Rect.block (s := S64x64) S64x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .bf16 = 32 ∨ (Rect.block (s := S64x64) S64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x64.size a ≤ S3x64.size a
  hwx0_10 : ∀ i : grid0.Coords, EltTy.bits .bf16 = 32 ∨ (Rect.block (s := S3x64) S3x64.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x4096.size a ≤ S4x2097152.size a
  hwx0_11 : ∀ i : grid0.Coords, EltTy.bits .f32 = 32 ∨ (Rect.block (s := S4x2097152) S4x4096.size (cc0_transform_11 i) (hinb0_11 i)).WholeWords (EltTy.packing .f32)

variable [Facts₀]

def dot_S64x15_S15x64_S64x64_1_0_0_1_n_n : DotDims S64x15 S15x64 S64x64 where
  lhsContracting := [1]
  rhsContracting := [0]
  lhsNonContracting := [0]
  rhsNonContracting := [1]
  lhsBatch := []
  rhsBatch := []
  wf := dot_S64x15_S15x64_S64x64_1_0_0_1_n_n_wf
def dot_S64x32_S32x4096_S64x4096_1_0_0_1_n_n : DotDims S64x32 S32x4096 S64x4096 where
  lhsContracting := [1]
  rhsContracting := [0]
  lhsNonContracting := [0]
  rhsNonContracting := [1]
  lhsBatch := []
  rhsBatch := []
  wf := dot_S64x32_S32x4096_S64x4096_1_0_0_1_n_n_wf
def dot_S64x64_S64x4096_S64x4096_1_0_0_1_n_n : DotDims S64x64 S64x4096 S64x4096 where
  lhsContracting := [1]
  rhsContracting := [0]
  lhsNonContracting := [0]
  rhsNonContracting := [1]
  lhsBatch := []
  rhsBatch := []
  wf := dot_S64x64_S64x4096_S64x4096_1_0_0_1_n_n_wf
def dot_S64x3_S3x4096_S64x4096_1_0_0_1_n_n : DotDims S64x3 S3x4096 S64x4096 where
  lhsContracting := [1]
  rhsContracting := [0]
  lhsNonContracting := [0]
  rhsNonContracting := [1]
  lhsBatch := []
  rhsBatch := []
  wf := dot_S64x3_S3x4096_S64x4096_1_0_0_1_n_n_wf
def dot_S3x64_S64x4096_S3x4096_1_0_0_1_n_n : DotDims S3x64 S64x4096 S3x4096 where
  lhsContracting := [1]
  rhsContracting := [0]
  lhsNonContracting := [0]
  rhsNonContracting := [1]
  lhsBatch := []
  rhsBatch := []
  wf := dot_S3x64_S64x4096_S3x4096_1_0_0_1_n_n_wf

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S64x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S3x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S4x4096.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2097152x32 : Shape := ⟨2, ![2097152, 32]⟩
abbrev S2097152x3 : Shape := ⟨2, ![2097152, 3]⟩
abbrev S2097152 : Shape := ⟨1, ![2097152]⟩
abbrev S32x64 : Shape := ⟨2, ![32, 64]⟩
abbrev S64x64 : Shape := ⟨2, ![64, 64]⟩
abbrev S64x17 : Shape := ⟨2, ![64, 17]⟩
abbrev S18x64 : Shape := ⟨2, ![18, 64]⟩
abbrev S64x3 : Shape := ⟨2, ![64, 3]⟩
abbrev S2097152x64 : Shape := ⟨2, ![2097152, 64]⟩
abbrev S_ : Shape := ⟨0, ![]⟩
abbrev S2097152x17 : Shape := ⟨2, ![2097152, 17]⟩
abbrev S2097152x1 : Shape := ⟨2, ![2097152, 1]⟩
abbrev S2097152x15 : Shape := ⟨2, ![2097152, 15]⟩
abbrev S2097152x18 : Shape := ⟨2, ![2097152, 18]⟩
abbrev S2097152x4 : Shape := ⟨2, ![2097152, 4]⟩

abbrev nBuf : Space → Nat
  | .hbm => 71
  | .vmem => 0
  | .smem => 0
  | _ => 0

abbrev bufTy : (tb : Table) → Fin (tcTables nBuf tb) → BufTy
  | .hbm, ⟨0, _⟩ => ⟨S2097152x32, .f32⟩
  | .hbm, ⟨1, _⟩ => ⟨S2097152x3, .f32⟩
  | .hbm, ⟨2, _⟩ => ⟨S2097152, .f32⟩
  | .hbm, ⟨3, _⟩ => ⟨S32x64, .f32⟩
  | .hbm, ⟨4, _⟩ => ⟨S64x64, .f32⟩
  | .hbm, ⟨5, _⟩ => ⟨S64x17, .f32⟩
  | .hbm, ⟨6, _⟩ => ⟨S18x64, .f32⟩
  | .hbm, ⟨7, _⟩ => ⟨S64x64, .f32⟩
  | .hbm, ⟨8, _⟩ => ⟨S64x64, .f32⟩
  | .hbm, ⟨9, _⟩ => ⟨S64x3, .f32⟩
  | .hbm, ⟨10, _⟩ => ⟨S2097152x64, .f32⟩
  | .hbm, ⟨11, _⟩ => ⟨S_, .f32⟩
  | .hbm, ⟨12, _⟩ => ⟨S2097152x64, .f32⟩
  | .hbm, ⟨13, _⟩ => ⟨S2097152x64, .f32⟩
  | .hbm, ⟨14, _⟩ => ⟨S2097152x64, .f32⟩
  | .hbm, ⟨15, _⟩ => ⟨S_, .f32⟩
  | .hbm, ⟨16, _⟩ => ⟨S2097152x64, .f32⟩
  | .hbm, ⟨17, _⟩ => ⟨S2097152x64, .f32⟩
  | .hbm, ⟨18, _⟩ => ⟨S2097152x17, .f32⟩
  | .hbm, ⟨19, _⟩ => ⟨S2097152x1, .f32⟩
  | .hbm, ⟨20, _⟩ => ⟨S2097152, .f32⟩
  | .hbm, ⟨21, _⟩ => ⟨S_, .f32⟩
  | .hbm, ⟨22, _⟩ => ⟨S2097152, .f32⟩
  | .hbm, ⟨23, _⟩ => ⟨S2097152, .f32⟩
  | .hbm, ⟨24, _⟩ => ⟨S2097152, .f32⟩
  | .hbm, ⟨25, _⟩ => ⟨S2097152, .f32⟩
  | .hbm, ⟨26, _⟩ => ⟨S2097152, .i1⟩
  | .hbm, ⟨27, _⟩ => ⟨S2097152, .f32⟩
  | .hbm, ⟨28, _⟩ => ⟨S2097152, .f32⟩
  | .hbm, ⟨29, _⟩ => ⟨S2097152, .f32⟩
  | .hbm, ⟨30, _⟩ => ⟨S2097152, .f32⟩
  | .hbm, ⟨31, _⟩ => ⟨S2097152, .f32⟩
  | .hbm, ⟨32, _⟩ => ⟨S2097152, .f32⟩
  | .hbm, ⟨33, _⟩ => ⟨S2097152, .f32⟩
  | .hbm, ⟨34, _⟩ => ⟨S2097152, .f32⟩
  | .hbm, ⟨35, _⟩ => ⟨S2097152x15, .f32⟩
  | .hbm, ⟨36, _⟩ => ⟨S2097152x18, .f32⟩
  | .hbm, ⟨37, _⟩ => ⟨S2097152x64, .f32⟩
  | .hbm, ⟨38, _⟩ => ⟨S_, .f32⟩
  | .hbm, ⟨39, _⟩ => ⟨S2097152x64, .f32⟩
  | .hbm, ⟨40, _⟩ => ⟨S2097152x64, .f32⟩
  | .hbm, ⟨41, _⟩ => ⟨S2097152x64, .f32⟩
  | .hbm, ⟨42, _⟩ => ⟨S_, .f32⟩
  | .hbm, ⟨43, _⟩ => ⟨S2097152x64, .f32⟩
  | .hbm, ⟨44, _⟩ => ⟨S2097152x64, .f32⟩
  | .hbm, ⟨45, _⟩ => ⟨S2097152x64, .f32⟩
  | .hbm, ⟨46, _⟩ => ⟨S_, .f32⟩
  | .hbm, ⟨47, _⟩ => ⟨S2097152x64, .f32⟩
  | .hbm, ⟨48, _⟩ => ⟨S2097152x64, .f32⟩
  | .hbm, ⟨49, _⟩ => ⟨S2097152x3, .f32⟩
  | .hbm, ⟨50, _⟩ => ⟨S2097152x3, .f32⟩
  | .hbm, ⟨51, _⟩ => ⟨S2097152x3, .f32⟩
  | .hbm, ⟨52, _⟩ => ⟨S_, .f32⟩
  | .hbm, ⟨53, _⟩ => ⟨S2097152x3, .f32⟩
  | .hbm, ⟨54, _⟩ => ⟨S2097152x3, .f32⟩
  | .hbm, ⟨55, _⟩ => ⟨S_, .f32⟩
  | .hbm, ⟨56, _⟩ => ⟨S2097152x3, .f32⟩
  | .hbm, ⟨57, _⟩ => ⟨S2097152x3, .f32⟩
  | .hbm, ⟨58, _⟩ => ⟨S2097152, .f32⟩
  | .hbm, ⟨59, _⟩ => ⟨S2097152x1, .f32⟩
  | .hbm, ⟨60, _⟩ => ⟨S2097152x3, .f32⟩
  | .hbm, ⟨61, _⟩ => ⟨S2097152x3, .f32⟩
  | .hbm, ⟨62, _⟩ => ⟨S_, .f32⟩
  | .hbm, ⟨63, _⟩ => ⟨S2097152, .f32⟩
  | .hbm, ⟨64, _⟩ => ⟨S2097152, .f32⟩
  | .hbm, ⟨65, _⟩ => ⟨S2097152, .f32⟩
  | .hbm, ⟨66, _⟩ => ⟨S2097152x1, .f32⟩
  | .hbm, ⟨67, _⟩ => ⟨S2097152x3, .f32⟩
  | .hbm, ⟨68, _⟩ => ⟨S2097152x3, .f32⟩
  | .hbm, ⟨69, _⟩ => ⟨S2097152x1, .f32⟩
  | .hbm, ⟨70, _⟩ => ⟨S2097152x4, .f32⟩
  | _, _ => ⟨S2097152x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_call1_cst : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call2_cst : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_call3_cst : Ref sig .tc := ⟨.hbm, 38, rfl⟩
abbrev main_call3_v0 : Ref sig .tc := ⟨.hbm, 39, rfl⟩
abbrev main_v11 : Ref sig .tc := ⟨.hbm, 40, rfl⟩
abbrev main_v12 : Ref sig .tc := ⟨.hbm, 41, rfl⟩
abbrev main_call4_cst : Ref sig .tc := ⟨.hbm, 42, rfl⟩
abbrev main_call4_v0 : Ref sig .tc := ⟨.hbm, 43, rfl⟩
abbrev main_v13 : Ref sig .tc := ⟨.hbm, 44, rfl⟩
abbrev main_v14 : Ref sig .tc := ⟨.hbm, 45, rfl⟩
abbrev main_call5_cst : Ref sig .tc := ⟨.hbm, 46, rfl⟩
abbrev main_call5_v0 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst : Ref sig .tc := ⟨.hbm, 52, rfl⟩
abbrev main_v19 : Ref sig .tc := ⟨.hbm, 53, rfl⟩
abbrev main_v20 : Ref sig .tc := ⟨.hbm, 54, rfl⟩
abbrev main_cst_0 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_1 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩

abbrev nD : Nat := 1
abbrev τ : Topo := Topo.v7x

variable {F : FTy → Type} [FloatOps F]

class Facts₀ : Prop where
  bcast_S_S2097152x64 : S_.BroadcastsInDim S2097152x64 (![] : Fin 0 → Fin S2097152x64.rank)
  slices_S2097152x17_S2097152x1_0_0 : S2097152x17.Slices ![0, 0] S2097152x1
  shapeCasts_S2097152x1_S2097152 : S2097152x1.ShapeCasts S2097152
  bcast_S_S2097152 : S_.BroadcastsInDim S2097152 (![] : Fin 0 → Fin S2097152.rank)
  slices_S2097152x17_S2097152x15_0_2 : S2097152x17.Slices ![0, 2] S2097152x15
  concatenates_S2097152x3_S2097152x15_S2097152x18_d1 : Shape.Concatenates [S2097152x3, S2097152x15] S2097152x18 1
  bcast_S_S2097152x3 : S_.BroadcastsInDim S2097152x3 (![] : Fin 0 → Fin S2097152x3.rank)
  bcast_S2097152_S2097152x1_0 : S2097152.BroadcastsInDim S2097152x1 (![0] : Fin 1 → Fin S2097152x1.rank)
  bcast_S2097152x1_S2097152x3_0_1 : S2097152x1.BroadcastsInDim S2097152x3 (![0, 1] : Fin 2 → Fin S2097152x3.rank)
  concatenates_S2097152x3_S2097152x1_S2097152x4_d1 : Shape.Concatenates [S2097152x3, S2097152x1] S2097152x4 1
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x17_S2097152x17_1_0_0_1_n_n_wf : DotDims.WF S2097152x64 S64x17 S2097152x17 [1] [0] [0] [1] [] []
  dot_S2097152x18_S18x64_S2097152x64_1_0_0_1_n_n_wf : DotDims.WF S2097152x18 S18x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x17_S2097152x17_1_0_0_1_n_n : DotDims S2097152x64 S64x17 S2097152x17 where
  lhsContracting := [1]
  rhsContracting := [0]
  lhsNonContracting := [0]
  rhsNonContracting := [1]
  lhsBatch := []
  rhsBatch := []
  wf := dot_S2097152x64_S64x17_S2097152x17_1_0_0_1_n_n_wf
def dot_S2097152x18_S18x64_S2097152x64_1_0_0_1_n_n : DotDims S2097152x18 S18x64 S2097152x64 where
  lhsContracting := [1]
  rhsContracting := [0]
  lhsNonContracting := [0]
  rhsNonContracting := [1]
  lhsBatch := []
  rhsBatch := []
  wf := dot_S2097152x18_S18x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.Dots.lean ====
/-
  Every contraction of the kernel program — the four shapes of its matrix-unit products and the host's product of the
  two weight slices — contracts the left operand's second axis with the right operand's first and batches nothing.
-/
import proofs.«140247_j70153995813580_2_alg».proof.Proof.Gen.KernelIdeal
import proofs.«140247_j70153995813580_2_alg».proof.Proof.LibDotIx2

namespace Cert.KernelIdeal.Dots

open Idealize.ShloMosaic Idealize.ShloMosaic.ValueIdx Cert.KernelIdeal Cert.KernelIdeal.Gen

/-- The record's dimension numbers are those of a plain product. -/
theorem pd_first : PlainDot dot_S64x32_S32x4096_S64x4096_1_0_0_1_n_n where
  rank := rfl
  size := rfl
  l0 := fun j q => by
    unfold DotDims.lhsIdx
    rw [dif_neg (show ¬(0 : Fin 2) ∈ dot_S64x32_S32x4096_S64x4096_1_0_0_1_n_n.lhsBatch by decide),
      dif_pos (show (0 : Fin 2) ∈ dot_S64x32_S32x4096_S64x4096_1_0_0_1_n_n.lhsNonContracting by decide)]
    rfl
  l1 := fun j q => dot_S64x32_S32x4096_S64x4096_1_0_0_1_n_n.lhsIdx_val_of_single rfl j q
  r0 := fun j q => dot_S64x32_S32x4096_S64x4096_1_0_0_1_n_n.rhsIdx_val_of_single rfl j q
  r1 := fun j q => by
    unfold DotDims.rhsIdx
    rw [dif_neg (show ¬(1 : Fin 2) ∈ dot_S64x32_S32x4096_S64x4096_1_0_0_1_n_n.rhsBatch by decide),
      dif_pos (show (1 : Fin 2) ∈ dot_S64x32_S32x4096_S64x4096_1_0_0_1_n_n.rhsNonContracting by decide)]
    rfl

/-- The record's dimension numbers are those of a plain product. -/
theorem pd_square : PlainDot dot_S64x64_S64x4096_S64x4096_1_0_0_1_n_n where
  rank := rfl
  size := rfl
  l0 := fun j q => by
    unfold DotDims.lhsIdx
    rw [dif_neg (show ¬(0 : Fin 2) ∈ dot_S64x64_S64x4096_S64x4096_1_0_0_1_n_n.lhsBatch by decide),
      dif_pos (show (0 : Fin 2) ∈ dot_S64x64_S64x4096_S64x4096_1_0_0_1_n_n.lhsNonContracting by decide)]
    rfl
  l1 := fun j q => dot_S64x64_S64x4096_S64x4096_1_0_0_1_n_n.lhsIdx_val_of_single rfl j q
  r0 := fun j q => dot_S64x64_S64x4096_S64x4096_1_0_0_1_n_n.rhsIdx_val_of_single rfl j q
  r1 := fun j q => by
    unfold DotDims.rhsIdx
    rw [dif_neg (show ¬(1 : Fin 2) ∈ dot_S64x64_S64x4096_S64x4096_1_0_0_1_n_n.rhsBatch by decide),
      dif_pos (show (1 : Fin 2) ∈ dot_S64x64_S64x4096_S64x4096_1_0_0_1_n_n.rhsNonContracting by decide)]
    rfl

/-- The record's dimension numbers are those of a plain product. -/
theorem pd_views : PlainDot dot_S64x3_S3x4096_S64x4096_1_0_0_1_n_n where
  rank := rfl
  size := rfl
  l0 := fun j q => by
    unfold DotDims.lhsIdx
    rw [dif_neg (show ¬(0 : Fin 2) ∈ dot_S64x3_S3x4096_S64x4096_1_0_0_1_n_n.lhsBatch by decide),
      dif_pos (show (0 : Fin 2) ∈ dot_S64x3_S3x4096_S64x4096_1_0_0_1_n_n.lhsNonContracting by decide)]
    rfl
  l1 := fun j q => dot_S64x3_S3x4096_S64x4096_1_0_0_1_n_n.lhsIdx_val_of_single rfl j q
  r0 := fun j q => dot_S64x3_S3x4096_S64x4096_1_0_0_1_n_n.rhsIdx_val_of_single rfl j q
  r1 := fun j q => by
    unfold DotDims.rhsIdx
    rw [dif_neg (show ¬(1 : Fin 2) ∈ dot_S64x3_S3x4096_S64x4096_1_0_0_1_n_n.rhsBatch by decide),
      dif_pos (show (1 : Fin 2) ∈ dot_S64x3_S3x4096_S64x4096_1_0_0_1_n_n.rhsNonContracting by decide)]
    rfl

/-- The record's dimension numbers are those of a plain product. -/
theorem pd_last : PlainDot dot_S3x64_S64x4096_S3x4096_1_0_0_1_n_n where
  rank := rfl
  size := rfl
  l0 := fun j q => by
    unfold DotDims.lhsIdx
    rw [dif_neg (show ¬(0 : Fin 2) ∈ dot_S3x64_S64x4096_S3x4096_1_0_0_1_n_n.lhsBatch by decide),
      dif_pos (show (0 : Fin 2) ∈ dot_S3x64_S64x4096_S3x4096_1_0_0_1_n_n.lhsNonContracting by decide)]
    rfl
  l1 := fun j q => dot_S3x64_S64x4096_S3x4096_1_0_0_1_n_n.lhsIdx_val_of_single rfl j q
  r0 := fun j q => dot_S3x64_S64x4096_S3x4096_1_0_0_1_n_n.rhsIdx_val_of_single rfl j q
  r1 := fun j q => by
    unfold DotDims.rhsIdx
    rw [dif_neg (show ¬(1 : Fin 2) ∈ dot_S3x64_S64x4096_S3x4096_1_0_0_1_n_n.rhsBatch by decide),
      dif_pos (show (1 : Fin 2) ∈ dot_S3x64_S64x4096_S3x4096_1_0_0_1_n_n.rhsNonContracting by decide)]
    rfl

/-- The record's dimension numbers are those of a plain product. -/
theorem pd_fuse : PlainDot dot_S64x15_S15x64_S64x64_1_0_0_1_n_n where
  rank := rfl
  size := rfl
  l0 := fun j q => by
    unfold DotDims.lhsIdx
    rw [dif_neg (show ¬(0 : Fin 2) ∈ dot_S64x15_S15x64_S64x64_1_0_0_1_n_n.lhsBatch by decide),
      dif_pos (show (0 : Fin 2) ∈ dot_S64x15_S15x64_S64x64_1_0_0_1_n_n.lhsNonContracting by decide)]
    rfl
  l1 := fun j q => dot_S64x15_S15x64_S64x64_1_0_0_1_n_n.lhsIdx_val_of_single rfl j q
  r0 := fun j q => dot_S64x15_S15x64_S64x64_1_0_0_1_n_n.rhsIdx_val_of_single rfl j q
  r1 := fun j q => by
    unfold DotDims.rhsIdx
    rw [dif_neg (show ¬(1 : Fin 2) ∈ dot_S64x15_S15x64_S64x64_1_0_0_1_n_n.rhsBatch by decide),
      dif_pos (show (1 : Fin 2) ∈ dot_S64x15_S15x64_S64x64_1_0_0_1_n_n.rhsNonContracting by decide)]
    rfl

end Cert.KernelIdeal.Dots
-- ==== Proof.LibRealEntries.lean ====
/-
  Extended reals that are real numbers, and the one law that joins the two programs' batch normalisations.

  An extended real is called real when it is the image of a real number. Sums, differences, products, maxima and
  quotients by a nonzero real of real entries are real, and so is the reciprocal square root of a positive real.

  The law: for n real numbers a_i and N = n (as a real, nonzero),
      (sum of a_i^2) / N - (sum a_i / N)^2  =  (sum of (a_i - sum a / N)^2) / N,
  the mean of the squares minus the square of the mean is the mean of the squared deviations. It holds for real
  entries only (an infinite entry makes the two sides different infinities), which is why finiteness is carried
  through every layer. The right-hand side is a nonnegative real, so adding a positive epsilon and taking the
  reciprocal square root gives a real number.
-/
import Idealize.ShloMosaic.PureOps.Ideal

noncomputable section

open scoped BigOperators

namespace Cert.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.div_real {x : EReal} (hx : IsReal x) {y : ℝ} (hy : y ≠ 0) : IsReal (Ideal.div x (y : EReal)) := by
  rw [Ideal.div_coe hy]; exact hx.mul ⟨_, rfl⟩

/-- The reciprocal square root of a positive real is a real. -/
theorem isReal_rsqrt_pos {r : ℝ} (h : 0 < r) : IsReal (Ideal.rsqrt (r : EReal)) := by
  rw [Ideal.rsqrt_coe, if_neg (not_lt.mpr h.le), if_neg h.ne']
  exact ⟨_, rfl⟩

/-- The mean of the squares minus the square of the mean is the mean of the squared deviations, for real entries. -/
theorem var_eq {n : ℕ} (a : Fin n → EReal) (ha : ∀ i, IsReal (a i)) (N : ℝ) (hN : N ≠ 0) (hn : (n : ℝ) = N) :
    Ideal.div (∑ i, a i * a i) (N : EReal) - Ideal.div (∑ i, a i) (N : EReal) * Ideal.div (∑ i, a i) (N : EReal)
      = Ideal.div (∑ i, (a i - Ideal.div (∑ j, a j) (N : EReal)) * (a i - Ideal.div (∑ j, a j) (N : EReal))) (N : EReal) := by
  choose f hf using ha
  have hfun : a = fun i => (f i : EReal) := funext hf
  subst hfun
  simp only [Ideal.div_coe hN, ← EReal.coe_mul, ← coe_sum, ← EReal.coe_sub]
  refine congrArg _ ?_
  have h1 : ∑ i, (f i - (∑ j, f j) * (1 / N)) * (f i - (∑ j, f j) * (1 / N))
      = ∑ i, f i * f i - 2 * ((∑ j, f j) * (1 / N)) * ∑ i, f i + (n : ℝ) * (((∑ j, f j) * (1 / N)) * ((∑ j, f j) * (1 / N))) := by
    have : ∀ i, (f i - (∑ j, f j) * (1 / N)) * (f i - (∑ j, f j) * (1 / N))
        = f i * f i - 2 * ((∑ j, f j) * (1 / N)) * f i + ((∑ j, f j) * (1 / N)) * ((∑ j, f j) * (1 / N)) := fun i => by ring
    simp only [this, Finset.sum_add_distrib, Finset.sum_sub_distrib, ← Finset.mul_sum, Finset.sum_const, Finset.card_univ,
      Fintype.card_fin, nsmul_eq_mul]
    ring
  rw [h1, hn]
  field_simp
  ring

/-- The mean of the squared deviations of real entries, plus a positive real, has a real reciprocal square root. -/
theorem isReal_rsqrt_var {n : ℕ} (a : Fin n → EReal) (ha : ∀ i, IsReal (a i)) (μ : EReal) (hμ : IsReal μ) (N : ℝ) (hN : 0 < N)
    (e : ℝ) (he : 0 < e) : IsReal (Ideal.rsqrt (Ideal.div (∑ i, (a i - μ) * (a i - μ)) (N : EReal) + (e : EReal))) := by
  choose f hf using ha
  obtain ⟨u, rfl⟩ := hμ
  have hfun : a = fun i => (f i : EReal) := funext hf
  subst hfun
  simp only [Ideal.div_coe hN.ne', ← EReal.coe_mul, ← coe_sum, ← EReal.coe_sub, ← EReal.coe_add]
  refine isReal_rsqrt_pos ?_
  have : 0 ≤ (∑ i, (f i - u) * (f i - u)) * (1 / N) :=
    mul_nonneg (Finset.sum_nonneg fun i _ => mul_self_nonneg _) (by positivity)
  linarith

end Cert.Algebra

end
-- ==== Proof.Spec.lean ====
/-
  One sample of the radiance network over the extended reals, as a function of the sample's row and of the weight
  matrices: two hidden layers with max(·, 0), a density read off the third layer's column 0 through
  softplus(a) = max(a, 0) + log(1 + e^(-|a|)), a colour head fed by the view direction joined with the third layer's
  columns 2..16, and the blend  (σ/(σ + ε)) · (colour · mask)  beside  σ + ε,  σ = softplus · mask.

  The colour head's first layer can be computed in two ways.  Joined: the 18 inputs (3 view coordinates, 15 features
  g_j = Σ_k h_k · W2[k, 2+j]) times C0.  Fused: h times the product matrix Σ_j W2[k, 2+j] · C0[3+j, c], plus the view
  coordinates times the first three rows of C0.  The two agree when h, W2 and C0 are real numbers — the sum over k is
  moved across the sum over j, which needs distributivity, and that fails at infinities — so the law is stated for
  real entries.
-/
import Idealize.ShloMosaic.PureOps.Ideal.Laws
import Idealize.ShloMosaic.PureOps.IdealRules
import Idealize.ShloMosaic.Lib.ValueIdx
import proofs.«140247_j70153995813580_2_alg».proof.Proof.LibRealEntries

noncomputable section

open scoped BigOperators

namespace Cert.Net

open Idealize.ShloMosaic Cert.Algebra

/-- max(a, 0). -/
def relu (a : EReal) : EReal := max a 0

/-- A row vector times a matrix, at column j. -/
def lin {n m : ℕ} (x : Fin n → EReal) (W : Fin n → Fin m → EReal) (j : Fin m) : EReal := ∑ k, x k * W k j

/-- The same sum with each product written matrix entry first. -/
theorem lin_comm {n m : ℕ} (x : Fin n → EReal) (W : Fin n → Fin m → EReal) (j : Fin m) :
    (∑ k, W k j * x k) = lin x W j := Finset.sum_congr rfl fun k _ => mul_comm _ _

/-- A row vector times a matrix with each product written matrix entry first. -/
def linT {n m : ℕ} (W : Fin n → Fin m → EReal) (x : Fin n → EReal) (j : Fin m) : EReal := ∑ k, W k j * x k

theorem linT_apply {n m : ℕ} (W : Fin n → Fin m → EReal) (x : Fin n → EReal) (j : Fin m) :
    linT W x j = lin x W j := lin_comm x W j

/-- The two hidden layers. -/
def trunk (x : Fin 32 → EReal) (W0 : Fin 32 → Fin 64 → EReal) (W1 : Fin 64 → Fin 64 → EReal) (j : Fin 64) : EReal :=
  relu (lin (fun k => relu (lin x W0 k)) W1 j)

/-- softplus as log(e^a + e^0) is computed: max(a, 0) + log1p(exp(-|a - 0|)). -/
def softplus (a : EReal) : EReal := max a 0 + Ideal.log1p (Ideal.exp (-(max (a - 0) (-(a - 0)))))

/-- No extended real differs from itself, so the guard "a - 0 is not a number" never fires. -/
theorem cmp_one_self (d : EReal) : Ideal.cmp .one d d = 0#1 := by simp [Ideal.cmp]
theorem cmp_une_self (d : EReal) : Ideal.cmp .une d d = 0#1 := by simp [Ideal.cmp]

/-- softplus with the negation written as a subtraction from zero and the guard as "ordered and different". -/
theorem softplus_sub (a : EReal) :
    Scalar.select (Ideal.cmp .one (a - 0) (a - 0)) (a + 0)
      (max a 0 + Ideal.log1p (Ideal.exp (0 - max (a - 0) (-(a - 0))))) = softplus a := by
  rw [cmp_one_self, ValueIdx.select_zero, zero_sub]; rfl

/-- softplus with a negation and the guard as "unordered or different". -/
theorem softplus_neg (a : EReal) :
    Scalar.select (Ideal.cmp .une (a - 0) (a - 0)) (a + 0)
      (max a 0 + Ideal.log1p (Ideal.exp (-(max (a - 0) (-(a - 0)))))) = softplus a := by
  rw [cmp_une_self, ValueIdx.select_zero]; rfl

/-- Columns 2..16 of a 17-vector. -/
def geo (g : Fin 17 → EReal) (j : Fin 15) : EReal := g ⟨2 + j.val, by omega⟩

/-- Three view coordinates followed by fifteen features. -/
def cat (v : Fin 3 → EReal) (g : Fin 15 → EReal) (i : Fin 18) : EReal :=
  if h : i.val < 3 then v ⟨i.val, h⟩ else g ⟨i.val - 3, by omega⟩

/-- The colour head from its first layer's pre-activation: three more layers and the logistic function. -/
def colour (hc : Fin 64 → EReal) (C1 C2 : Fin 64 → Fin 64 → EReal) (C3 : Fin 64 → Fin 3 → EReal) (c : Fin 3) : EReal :=
  Ideal.logistic (lin (fun k => relu (lin (fun k' => relu (lin (fun k'' => relu (hc k'')) C1 k')) C2 k)) C3 c)

/-- The small constant added to the density (the f32 nearest 1e-9; the same word in both programs). -/
def eps : EReal := Ideal.ofBits .f32 0x3089705F#32

/-- Output column c of a sample with density s before masking: the three blended colours, then σ + ε, σ = s · mask. -/
def blend (s : EReal) (col : Fin 3 → EReal) (μ : EReal) (c : Fin 4) : EReal :=
  if h : c.val < 3 then Ideal.div (s * μ) (s * μ + eps) * (col ⟨c.val, h⟩ * μ)
  else s * μ + eps

/-- The colour head's first layer, joined form. -/
def joinedPre (v : Fin 3 → EReal) (h : Fin 64 → EReal) (W2 : Fin 64 → Fin 17 → EReal) (C0 : Fin 18 → Fin 64 → EReal)
    (c : Fin 64) : EReal := lin (cat v (geo (lin h W2))) C0 c

/-- The colour head's first layer, fused form: h times a 64 x 64 matrix plus the view coordinates times a 3 x 64 one. -/
def fusedPre (v : Fin 3 → EReal) (h : Fin 64 → EReal) (Wf : Fin 64 → Fin 64 → EReal) (Cv : Fin 3 → Fin 64 → EReal)
    (c : Fin 64) : EReal := lin h Wf c + lin v Cv c

/-- One sample, whole. -/
def sample (x : Fin 32 → EReal) (v : Fin 3 → EReal) (μ : EReal) (W0 : Fin 32 → Fin 64 → EReal)
    (W1 : Fin 64 → Fin 64 → EReal) (W2 : Fin 64 → Fin 17 → EReal) (C0 : Fin 18 → Fin 64 → EReal)
    (C1 C2 : Fin 64 → Fin 64 → EReal) (C3 : Fin 64 → Fin 3 → EReal) (c : Fin 4) : EReal :=
  blend (softplus (lin (trunk x W0 W1) W2 0)) (colour (joinedPre v (trunk x W0 W1) W2 C0) C1 C2 C3) μ c

/-! ## Real entries -/

theorem isReal_lin {n m : ℕ} (x : Fin n → EReal) (W : Fin n → Fin m → EReal) (hx : ∀ k, IsReal (x k))
    (hW : ∀ k j, IsReal (W k j)) (j : Fin m) : IsReal (lin x W j) :=
  IsReal.sum _ _ fun k _ => (hx k).mul (hW k j)

theorem isReal_relu {a : EReal} (h : IsReal a) : IsReal (relu a) := h.max isReal_zero

theorem isReal_trunk (x : Fin 32 → EReal) (W0 : Fin 32 → Fin 64 → EReal) (W1 : Fin 64 → Fin 64 → EReal)
    (hx : ∀ k, IsReal (x k)) (h0 : ∀ k j, IsReal (W0 k j)) (h1 : ∀ k j, IsReal (W1 k j)) (j : Fin 64) :
    IsReal (trunk x W0 W1 j) :=
  isReal_relu (isReal_lin _ _ (fun k => isReal_relu (isReal_lin _ _ hx h0 k)) h1 j)

/-! ## The joined and the fused first layer agree on real entries -/

/-- Σ_k h_k · (Σ_j a_kj · b_j) = Σ_j (Σ_k h_k · a_kj) · b_j for real h, a, b. -/
theorem regroup {K J : ℕ} (a : Fin K → Fin J → EReal) (b : Fin J → EReal) (h : Fin K → EReal)
    (ha : ∀ k j, IsReal (a k j)) (hb : ∀ j, IsReal (b j)) (hh : ∀ k, IsReal (h k)) :
    (∑ k, h k * ∑ j, a k j * b j) = ∑ j, (∑ k, h k * a k j) * b j := by
  choose a' ha' using ha
  choose b' hb' using hb
  choose h' hh' using hh
  simp only [ha', hb', hh', ← EReal.coe_mul, ← coe_sum]
  refine congrArg _ ?_
  simp only [Finset.mul_sum, Finset.sum_mul]
  rw [Finset.sum_comm]
  exact Finset.sum_congr rfl fun j _ => Finset.sum_congr rfl fun k _ => by ring

/-- The joined layer split at the seam between the view coordinates and the features. -/
theorem lin_cat (v : Fin 3 → EReal) (g : Fin 15 → EReal) (C0 : Fin 18 → Fin 64 → EReal) (c : Fin 64) :
    lin (cat v g) C0 c
      = (∑ i : Fin 3, v i * C0 ⟨i.val, by omega⟩ c) + ∑ j : Fin 15, g j * C0 ⟨3 + j.val, by omega⟩ c := by
  unfold lin
  rw [show (∑ k : Fin 18, cat v g k * C0 k c) = ∑ k : Fin (3 + 15), cat v g k * C0 k c from rfl, Fin.sum_univ_add]
  congr 1

/-- The fused first layer over the product matrix is the joined first layer, for real h, W2 and C0. -/
theorem fused_eq_joined (v : Fin 3 → EReal) (h : Fin 64 → EReal) (W2 : Fin 64 → Fin 17 → EReal)
    (C0 : Fin 18 → Fin 64 → EReal) (hh : ∀ k, IsReal (h k)) (hW : ∀ k j, IsReal (W2 k j))
    (hC : ∀ i c, IsReal (C0 i c)) (c : Fin 64) :
    fusedPre v h (fun k c' => ∑ j : Fin 15, W2 k ⟨2 + j.val, by omega⟩ * C0 ⟨3 + j.val, by omega⟩ c')
        (fun i c' => C0 ⟨i.val, by omega⟩ c') c
      = joinedPre v h W2 C0 c := by
  unfold fusedPre joinedPre
  rw [lin_cat, add_comm]
  congr 1
  unfold lin geo
  exact regroup (fun k j => W2 k ⟨2 + j.val, by omega⟩) (fun j => C0 ⟨3 + j.val, by omega⟩ c) h
    (fun k j => hW k _) (fun j => hC _ c) hh

end Cert.Net

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColReduce.lean ====
/-
  Reductions of an n x k array along its columns, read at a column given by its coordinate. The reduced index (c) with
  the outer coordinate s put back is the array index (s, c); so a sum over the first axis at c is the finite sum over s
  of the entries (s, c), for the vector unit's reduction and for the host's (after its initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Column c's reduced index with the outer coordinate s inserted is (s, c). -/
theorem lift_col {n k : ℕ} (h : (⟨2, ![n, k]⟩ : Shape).Reduces [0] (⟨1, ![k]⟩ : Shape)) (c : Fin k)
    (s : Fin ((⟨2, ![n, k]⟩ : Shape).size 0)) : h.lift (ix1 c) s = ix2 (⟨s.val, s.isLt⟩ : Fin n) c := by
  funext a; apply Fin.ext
  fin_cases a <;> rfl

/-- A vector-unit sum over the first axis, at column c: the sum of the column's entries. -/
theorem multiReduction_add_col {n k : ℕ} {φ : FTy} (src : FVec Ideal (⟨2, ![n, k]⟩ : Shape) φ) (acc : BitVec φ.bits)
    (h : (⟨2, ![n, k]⟩ : Shape).Reduces [0] (⟨1, ![k]⟩ : Shape)) (hφ : FKind.Formats φ) (hacc : acc = FKind.add.neutral φ hφ) (c : Fin k) :
    multiReduction .add [0] (⟨1, ![k]⟩ : Shape) src acc h hφ hacc (ix1 c) = ∑ s : Fin n, (src (ix2 s c) : EReal) :=
  (Ideal.multiReduction_add_single src acc h hφ hacc (ix1 c)).trans
    (Finset.sum_congr rfl fun s _ => congrArg src (lift_col h c s))

/-- The host's sum over the first axis, at column c: the initial value plus the sum of the column's entries. -/
theorem hostReduceAdd_col {n k : ℕ} (h' : (⟨2, ![n, k]⟩ : Shape).ReducesTo [0] (⟨1, ![k]⟩ : Shape))
    (h : (⟨2, ![n, k]⟩ : Shape).Reduces [0] (⟨1, ![k]⟩ : Shape)) (x : (⟨2, ![n, k]⟩ : Shape).Idx → EReal) (init : EReal) (c : Fin k) :
    Ideal.hostReduceAdd h' x init (ix1 c) = init + ∑ s : Fin n, x (ix2 s c) :=
  (Ideal.hostReduceAdd_single h' h x init (ix1 c)).trans
    (congrArg (init + ·) (Finset.sum_congr rfl fun s _ => congrArg x (lift_col h c s)))

end Idealize.ShloMosaic.ValueIdx

end
-- ==== Proof.LibAxisLayout.lean ====
/-
  Arrays of three axes re-laid, each operation read at an index given by its coordinates.

  * two leading axes merged or split: an [A,B,m] array viewed as [N,m] with N = A·B has, in row b·B+t and column j,
    the entry (b,t,j); and back;
  * a unit axis added or dropped: [N,m] ↔ [N,1,m] and [A,B] → [A,B,1];
  * a broadcast between arrays of three axes: each coordinate is kept, or is 0 where the operand's axis has extent one;
  * a sum along the last or the middle axis as a finite sum over that coordinate;
  * a concatenation along the last axis of arrays of three axes, and along the rows of matrices, read in a chosen piece.
-/
import Idealize.ShloMosaic.Lib.Pipeline.Value
import Idealize.ShloMosaic.Lib.ValueIdx
import Idealize.ShloMosaic.PureOps.Ideal.Laws

noncomputable section

open scoped BigOperators

namespace Idealize.ShloMosaic.AxisLayout

open Idealize.ShloMosaic Idealize.ShloMosaic.ValueIdx

variable {α : Type}

/-! ## Two leading axes merged or split -/

/-- An [A,B,m] array viewed as [N,m]: row `b·B+t`, column `j` is the entry (b,t,j). -/
theorem cast_merge_apply {A B N m : ℕ} (x : (⟨3, ![A, B, m]⟩ : Shape).Idx → α)
    (h : (⟨3, ![A, B, m]⟩ : Shape).ShapeCasts ⟨2, ![N, m]⟩) (b : Fin A) (t : Fin B) (j : Fin m) (r : Fin N)
    (hr : r.val = b.val * B + t.val) :
    shapeCast ⟨2, ![N, m]⟩ x h (ix2 r j) = x (ix3 b t j) :=
  shapeCast_apply x h _ _ (by
    rw [Shape.rowMajor_val_three, Shape.rowMajor_val_two]
    show (b.val * B + t.val) * m + j.val = r.val * m + j.val
    rw [hr])

/-- An [N,m] array viewed as [A,B,m]: the entry (b,t,j) is row `b·B+t`, column `j`. -/
theorem cast_split_apply {A B N m : ℕ} (x : (⟨2, ![N, m]⟩ : Shape).Idx → α)
    (h : (⟨2, ![N, m]⟩ : Shape).ShapeCasts ⟨3, ![A, B, m]⟩) (b : Fin A) (t : Fin B) (j : Fin m) (r : Fin N)
    (hr : r.val = b.val * B + t.val) :
    shapeCast ⟨3, ![A, B, m]⟩ x h (ix3 b t j) = x (ix2 r j) :=
  shapeCast_apply x h _ _ (by
    rw [Shape.rowMajor_val_three, Shape.rowMajor_val_two]
    show r.val * m + j.val = (b.val * B + t.val) * m + j.val
    rw [hr])

/-! ## A unit axis added or dropped -/

/-- An [N,m] array viewed as [N,1,m]. -/
theorem cast_addMid_apply {N m : ℕ} (x : (⟨2, ![N, m]⟩ : Shape).Idx → α)
    (h : (⟨2, ![N, m]⟩ : Shape).ShapeCasts ⟨3, ![N, 1, m]⟩) (r : Fin N) (z : Fin 1) (j : Fin m) :
    shapeCast ⟨3, ![N, 1, m]⟩ x h (ix3 r z j) = x (ix2 r j) :=
  shapeCast_apply x h _ _ (by
    rw [Shape.rowMajor_val_three, Shape.rowMajor_val_two]
    show r.val * m + j.val = (r.val * 1 + z.val) * m + j.val
    have hz : z.val = 0 := by omega
    rw [hz, Nat.mul_one, Nat.add_zero])

/-- An [N,1,m] array viewed as [N,m]. -/
theorem cast_dropMid_apply {N m : ℕ} (x : (⟨3, ![N, 1, m]⟩ : Shape).Idx → α)
    (h : (⟨3, ![N, 1, m]⟩ : Shape).ShapeCasts ⟨2, ![N, m]⟩) (r : Fin N) (z : Fin 1) (j : Fin m) :
    shapeCast ⟨2, ![N, m]⟩ x h (ix2 r j) = x (ix3 r z j) :=
  shapeCast_apply x h _ _ (by
    rw [Shape.rowMajor_val_three, Shape.rowMajor_val_two]
    show (r.val * 1 + z.val) * m + j.val = r.val * m + j.val
    have hz : z.val = 0 := by omega
    rw [hz, Nat.mul_one, Nat.add_zero])

/-- An [A,B] array viewed as [A,B,1]. -/
theorem cast_addLast_apply {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) :=
  shapeCast_apply x h _ _ (by
    rw [Shape.rowMajor_val_three, Shape.rowMajor_val_two]
    show a.val * B + b.val = (a.val * B + b.val) * 1 + z.val
    have hz : z.val = 0 := by omega
    rw [hz, Nat.mul_one, Nat.add_zero])

/-! ## A broadcast between arrays of three axes -/

/-- A broadcast of an [a0,a1,a2] array to [b0,b1,b2], read at (j0,j1,j2): the operand at the coordinates that are
    `j`'s where the operand's axis is not of extent one, and 0 where it is. -/
theorem bcast3_apply {a0 a1 a2 b0 b1 b2 : ℕ} (x : (⟨3, ![a0, a1, a2]⟩ : Shape).Idx → α)
    (h : (⟨3, ![a0, a1, a2]⟩ : Shape).Broadcasts ⟨3, ![b0, b1, b2]⟩)
    (j0 : Fin b0) (j1 : Fin b1) (j2 : Fin b2) (k0 : Fin a0) (k1 : Fin a1) (k2 : Fin a2)
    (h0 : k0.val = if a0 = 1 then 0 else j0.val) (h1 : k1.val = if a1 = 1 then 0 else j1.val)
    (h2 : k2.val = if a2 = 1 then 0 else j2.val) :
    broadcastTo ⟨3, ![b0, b1, b2]⟩ x h (ix3 j0 j1 j2) = x (ix3 k0 k1 k2) :=
  broadcastTo_apply x h _ _ (fun a => by
    match a with
    | ⟨0, _⟩ => exact h0
    | ⟨1, _⟩ => exact h1
    | ⟨2, _⟩ => exact h2)

/-! ## A sum along one axis -/

/-- The reduced index (a,b) with the last coordinate `k` put back is (a,b,k). -/
theorem lift_last {A B m : ℕ} (h : (⟨3, ![A, B, m]⟩ : Shape).Reduces [2] (⟨2, ![A, B]⟩ : Shape)) (a : Fin A) (b : Fin B)
    (k : Fin ((⟨3, ![A, B, m]⟩ : Shape).size 2)) : h.lift (ix2 a b) k = ix3 a b (⟨k.val, k.isLt⟩ : Fin m) := by
  funext c; apply Fin.ext
  fin_cases c <;> rfl

/-- The reduced index (a,e) with the middle coordinate `k` put back is (a,k,e). -/
theorem lift_mid {A B m : ℕ} (h : (⟨3, ![A, B, m]⟩ : Shape).Reduces [1] (⟨2, ![A, m]⟩ : Shape)) (a : Fin A) (e : Fin m)
    (k : Fin ((⟨3, ![A, B, m]⟩ : Shape).size 1)) : h.lift (ix2 a e) k = ix3 a (⟨k.val, k.isLt⟩ : Fin B) e := by
  funext c; apply Fin.ext
  fin_cases c <;> rfl

/-- A sum along the last axis of an [A,B,m] array, at (a,b): the sum over `k` of the entries (a,b,k). -/
theorem sum_last_apply {A B m : ℕ} {φ : FTy} (x : FVec Ideal (⟨3, ![A, B, m]⟩ : Shape) φ) (acc : BitVec φ.bits)
    (h : (⟨3, ![A, B, m]⟩ : Shape).Reduces [2] (⟨2, ![A, B]⟩ : Shape)) (hφ : FKind.Formats φ) (hacc : acc = FKind.add.neutral φ hφ)
    (a : Fin A) (b : Fin B) :
    multiReduction .add [2] (⟨2, ![A, B]⟩ : Shape) x acc h hφ hacc (ix2 a b) = ∑ k : Fin m, (x (ix3 a b k) : EReal) :=
  (Ideal.multiReduction_add_single x acc h hφ hacc (ix2 a b)).trans
    (Finset.sum_congr rfl fun k _ => congrArg x (lift_last h a b k))

/-- A sum along the middle axis of an [A,B,m] array, at (a,e): the sum over `k` of the entries (a,k,e). -/
theorem sum_mid_apply {A B m : ℕ} {φ : FTy} (x : FVec Ideal (⟨3, ![A, B, m]⟩ : Shape) φ) (acc : BitVec φ.bits)
    (h : (⟨3, ![A, B, m]⟩ : Shape).Reduces [1] (⟨2, ![A, m]⟩ : Shape)) (hφ : FKind.Formats φ) (hacc : acc = FKind.add.neutral φ hφ)
    (a : Fin A) (e : Fin m) :
    multiReduction .add [1] (⟨2, ![A, m]⟩ : Shape) x acc h hφ hacc (ix2 a e) = ∑ k : Fin B, (x (ix3 a k e) : EReal) :=
  (Ideal.multiReduction_add_single x acc h hφ hacc (ix2 a e)).trans
    (Finset.sum_congr rfl fun k _ => congrArg x (lift_mid h a e k))

/-- The sum along the last axis as a kernel prints it for f32: the accumulator the literal zero pattern, its side
    condition the plain equation of two literals. -/
theorem sum_last_zero {A B m : ℕ} (x : FVec Ideal (⟨3, ![A, B, m]⟩ : Shape) .f32)
    (h : (⟨3, ![A, B, m]⟩ : Shape).Reduces [2] (⟨2, ![A, B]⟩ : Shape)) (hφ : FKind.Formats .f32)
    (hacc : (0x00000000#32 : BitVec 32) = 0x00000000#32) (a : Fin A) (b : Fin B) :
    multiReduction .add [2] (⟨2, ![A, B]⟩ : Shape) x 0x00000000#32 h hφ hacc (ix2 a b) = ∑ k : Fin m, (x (ix3 a b k) : EReal) :=
  sum_last_apply x 0x00000000#32 h hφ hacc a b

/-- The sum along the middle axis as a kernel prints it for f32. -/
theorem sum_mid_zero {A B m : ℕ} (x : FVec Ideal (⟨3, ![A, B, m]⟩ : Shape) .f32)
    (h : (⟨3, ![A, B, m]⟩ : Shape).Reduces [1] (⟨2, ![A, m]⟩ : Shape)) (hφ : FKind.Formats .f32)
    (hacc : (0x00000000#32 : BitVec 32) = 0x00000000#32) (a : Fin A) (e : Fin m) :
    multiReduction .add [1] (⟨2, ![A, m]⟩ : Shape) x 0x00000000#32 h hφ hacc (ix2 a e) = ∑ k : Fin B, (x (ix3 a k e) : EReal) :=
  sum_mid_apply x 0x00000000#32 h hφ hacc a e

/-! ## A concatenation read in a chosen piece -/

/-- A concatenation of arrays of three axes along the LAST axis, read at (a,b,r) with `r` in piece `k`: that piece
    at (a,b,j), where `j` is `r` less the extents `pre` of the pieces before it. -/
theorem concat_last_piece {A B M : ℕ} (xs : List ((s : Shape) × (s.Idx → α)))
    (h : Shape.Concatenates (xs.map (·.1)) (⟨3, ![A, B, M]⟩ : Shape) 2)
    (k : ℕ) (hk : k < xs.length) {m₁ : ℕ} (x₁ : (⟨3, ![A, B, m₁]⟩ : Shape).Idx → α)
    (hxk : xs[k] = ⟨(⟨3, ![A, B, m₁]⟩ : Shape), x₁⟩) (pre : ℕ)
    (hpre : (((xs.take k).map (·.1)).map fun s : Shape =>
      if h : s.rank = (⟨3, ![A, B, M]⟩ : Shape).rank then s.size ((2 : Fin (⟨3, ![A, B, M]⟩ : Shape).rank).cast h.symm) else 0).sum = pre)
    (a : Fin A) (b : Fin B) (j : Fin m₁) (r : Fin M) (hr : pre + j.val = r.val) :
    concatenate (⟨3, ![A, B, M]⟩ : Shape) 2 xs h (ix3 a b r) = x₁ (ix3 a b j) :=
  concatenate_apply_piece 2 xs h (ix3 a b r) k hk _ x₁ hxk rfl pre hpre (ix3 a b j)
    (fun c hc => by
      match c with
      | ⟨0, _⟩ => rfl
      | ⟨1, _⟩ => rfl
      | ⟨2, _⟩ => exact absurd rfl hc)
    hr

/-- A concatenation of matrices along the ROWS, read at (r,c) with `r` in piece `k`: that piece at (j,c). -/
theorem concat_rows_piece {M N : ℕ} (xs : List ((s : Shape) × (s.Idx → α)))
    (h : Shape.Concatenates (xs.map (·.1)) (⟨2, ![M, N]⟩ : Shape) 0)
    (k : ℕ) (hk : k < xs.length) {m₁ : ℕ} (x₁ : (⟨2, ![m₁, N]⟩ : Shape).Idx → α)
    (hxk : xs[k] = ⟨(⟨2, ![m₁, N]⟩ : Shape), x₁⟩) (pre : ℕ)
    (hpre : (((xs.take k).map (·.1)).map fun s : Shape =>
      if h : s.rank = (⟨2, ![M, N]⟩ : Shape).rank then s.size ((0 : Fin (⟨2, ![M, N]⟩ : Shape).rank).cast h.symm) else 0).sum = pre)
    (j : Fin m₁) (c : Fin N) (r : Fin M) (hr : pre + j.val = r.val) :
    concatenate (⟨2, ![M, N]⟩ : Shape) 0 xs h (ix2 r c) = x₁ (ix2 j c) :=
  concatenate_apply_piece 0 xs h (ix2 r c) k hk _ x₁ hxk rfl pre hpre (ix2 j c)
    (fun d hd => by
      match d with
      | ⟨0, _⟩ => exact absurd rfl hd
      | ⟨1, _⟩ => rfl)
    hr

end Idealize.ShloMosaic.AxisLayout

end
-- ==== Proof.Body.lean ====
import proofs.«140247_j70153995813580_2_alg».proof.Proof.Gen.KernelIdeal.Skeleton
import proofs.«140247_j70153995813580_2_alg».proof.Proof.Dots
import proofs.«140247_j70153995813580_2_alg».proof.Proof.Spec
import proofs.«140247_j70153995813580_2_alg».proof.Proof.LibKeepdims
import proofs.«140247_j70153995813580_2_alg».proof.Proof.LibColReduce
import proofs.«140247_j70153995813580_2_alg».proof.Proof.LibAxisLayout
import Idealize.ShloMosaic.Lib.ValueLayout
import Idealize.ShloMosaic.Lib.Pipeline.Value

noncomputable section

open scoped BigOperators

namespace Cert.KernelIdeal.Body

open Idealize.ShloMosaic Idealize.ShloMosaic.ValueIdx Cert.KernelIdeal Cert.KernelIdeal.Gen Cert.KernelIdeal.Dots Cert.Net

/-- The permutation [1, 0] as the printed body carries it: a list over Fin 2 of numerals typed by the operand's rank. -/
local notation "swap[" s "]" =>
  (@List.cons (Fin 2) (1 : Fin (Shape.rank s)) (@List.cons (Fin 2) (0 : Fin (Shape.rank s)) (@List.nil (Fin 2))))

/-- The row block transposed: entry (k, p) is the block's entry (p, k). -/
theorem tr_rows32 (v0 : Vec Ideal S4096x32 .f32) (k : Fin 32) (p : Fin 4096) :
    (transpose S32x4096 swap[S4096x32] v0 transposes_S4096x32_p1_0_S32x4096 : FVec Ideal S32x4096 .f32) (ix2 k p)
      = v0 (ix2 p k) :=
  transpose_ix2_apply v0 _ k p

theorem tr_rows3 (v3 : Vec Ideal S4096x3 .f32) (k : Fin 3) (p : Fin 4096) :
    (transpose S3x4096 swap[S4096x3] v3 transposes_S4096x3_p1_0_S3x4096 : FVec Ideal S3x4096 .f32) (ix2 k p)
      = v3 (ix2 p k) :=
  transpose_ix2_apply v3 _ k p

/-- The two hidden layers, as the body computes them on a block: entry (j, p) is hidden unit j of the block's row p. -/
theorem trunk_apply (v0 : Vec Ideal S4096x32 .f32) (v6 : Vec Ideal S64x32 .bf16) (v12 : Vec Ideal S64x64 .bf16)
    (j : Fin 64) (p : Fin 4096) :
    k0_pay3 v0 v6 v12 (ix2 j p)
      = trunk (fun i => v0 (ix2 p i)) (fun i j' => v6 (ix2 j' i)) (fun i j' => v12 (ix2 j' i)) j := by
  unfold k0_pay3 trunk relu
  simp only [maximumf_apply, broadcast_apply, truncf_apply, shapeCast_self, matmul_zero_ix2_any pd_first,
    matmul_zero_ix2_any pd_square, tr_rows32, Ideal.ofBits_def, Ideal.ofBits_zero_f32, ← linT_apply, linT]

/-- The density before masking, at lane p of the block: softplus of the hidden units against the density column. -/
theorem density_apply (v0 : Vec Ideal S4096x32 .f32) (v6 : Vec Ideal S64x32 .bf16) (v12 : Vec Ideal S64x64 .bf16)
    (v17 : Vec Ideal S64x1 .f32) (u : Fin 1) (p : Fin 4096) :
    k0_pay4 v0 v6 v12 v17 (ix2 u p)
      = softplus (∑ k : Fin 64,
          trunk (fun i => v0 (ix2 p i)) (fun i j' => v6 (ix2 j' i)) (fun i j' => v12 (ix2 j' i)) k
            * v17 (ix2 k (0 : Fin 1))) := by
  unfold k0_pay4
  simp only [select_apply, cmpf_apply, addf_apply, subf_apply, maximumf_apply, broadcast_apply, mulf_apply, shapeCast_self,
    absf, exp, log1p, shapeCast_a_1a_apply,
    Ideal.ofBits_def, Ideal.ofBits_zero_f32, Ideal.cmpf_def, Ideal.absf_def, Ideal.exp_def, Ideal.log1p_def]
  rw [softplus_sub]
  refine congrArg softplus ?_
  refine (multiReduction_add_col _ _ _ _ _ p).trans (Finset.sum_congr rfl fun s _ => ?_)
  simp only [mulf_apply, trunk_apply, broadcastTo_a1_ab_apply]

/-- Column c of the block's output at lane p, from the values the body has by then: the view rows, the density, the
    hidden units and the fused matrix, and the remaining weight blocks and the mask as loaded. -/
theorem out_apply (v5 : FVec Ideal S3x4096 .bf16) (v36 : FVec Ideal S1x4096 .f32) (v37 : FVec Ideal S64x4096 .bf16)
    (v39 : FVec Ideal S64x64 .bf16) (v41 : Vec Ideal S64x3 .bf16) (v48 v54 : Vec Ideal S64x64 .bf16)
    (v60 : Vec Ideal S3x64 .bf16) (v64 : Vec Ideal S1x4096 .f32) (c : Fin 4) (p : Fin 4096) :
    k0_pay1 v5 v36 v37 v39 v41 v48 v54 v60 v64 (ix2 c p)
      = blend (v36 (ix2 (0 : Fin 1) p))
          (colour (fusedPre (fun i => v5 (ix2 i p)) (fun k => v37 (ix2 k p)) (fun k j => v39 (ix2 j k))
              (fun i j => v41 (ix2 j i)))
            (fun k j => v48 (ix2 j k)) (fun k j => v54 (ix2 j k)) (fun k j => v60 (ix2 j k)))
          (v64 (ix2 (0 : Fin 1) p)) c := by
  unfold k0_pay1
  by_cases hc : c.val < 3
  · refine (AxisLayout.concat_rows_piece _ _ 0 (by exact Nat.zero_lt_two) _ rfl 0 rfl (⟨c.val, hc⟩ : Fin 3) p c
      (Nat.zero_add _)).trans ?_
    unfold blend colour fusedPre relu
    rw [dif_pos hc]
    simp only [mulf_apply, addf_apply, divf_apply, maximumf_apply, broadcast_apply, truncf_apply, shapeCast_self,
      logistic, broadcastTo_1b_ab_apply, matmul_zero_ix2_any pd_square, matmul_zero_ix2_any pd_views,
      matmul_zero_ix2_any pd_last, Ideal.ofBits_def, Ideal.ofBits_zero_f32, Ideal.logistic_def, ← linT_apply, linT, eps]
  · have h3 : c.val = 3 := by omega
    refine (AxisLayout.concat_rows_piece _ _ 1 (by exact Nat.one_lt_two) _ rfl 3 rfl (0 : Fin 1) p c
      (by simp [h3])).trans ?_
    unfold blend
    rw [dif_neg hc]
    simp only [mulf_apply, addf_apply, broadcast_apply, shapeCast_self, Ideal.ofBits_def, eps]

/-- Column c of the block's output at lane p, from the eleven input blocks. -/
theorem body_apply (x0 : Vec Ideal S4096x32 .f32) (x1 : Vec Ideal S4096x3 .f32) (x2 : Vec Ideal S1x4096 .f32)
    (x3 : Vec Ideal S64x32 .bf16) (x4 : Vec Ideal S64x64 .bf16) (x5 : Vec Ideal S64x1 .f32) (x6 : Vec Ideal S64x64 .bf16)
    (x7 : Vec Ideal S64x3 .bf16) (x8 x9 : Vec Ideal S64x64 .bf16) (x10 : Vec Ideal S3x64 .bf16)
    (c : Fin 4) (p : Fin 4096) :
    k0_pay1 (k0_pay2 x1) (k0_pay4 x0 x3 x4 x5) (k0_pay5 x0 x3 x4) (k0_pay6 x6) x7 x8 x9 x10 x2 (ix2 c p)
      = blend (softplus (∑ k : Fin 64,
            trunk (fun i => x0 (ix2 p i)) (fun i j' => x3 (ix2 j' i)) (fun i j' => x4 (ix2 j' i)) k * x5 (ix2 k (0 : Fin 1))))
          (colour (fusedPre (fun i => x1 (ix2 p i))
              (trunk (fun i => x0 (ix2 p i)) (fun i j' => x3 (ix2 j' i)) (fun i j' => x4 (ix2 j' i)))
              (fun k j => x6 (ix2 j k)) (fun i j => x7 (ix2 j i)))
            (fun k j => x8 (ix2 j k)) (fun k j => x9 (ix2 j k)) (fun k j => x10 (ix2 j k)))
          (x2 (ix2 (0 : Fin 1) p)) c := by
  rw [out_apply, density_apply]
  simp only [k0_pay2, k0_pay5, k0_pay6, truncf_apply, shapeCast_self, tr_rows3, trunk_apply]

end Cert.KernelIdeal.Body

end
-- ==== Proof.Prep.lean ====
/-
  What the kernel's windows hold when the region is entered.  The host lines before the region transpose each weight
  matrix (the kernel multiplies from the left), cut the density column and the feature columns out of the third
  layer's weights, multiply the feature columns by rows 3..17 of the colour head's first matrix, and view the mask as
  one row.  Each window's array is read here at an index, in terms of the argument arrays.
-/
import proofs.«140247_j70153995813580_2_alg».proof.Proof.Gen.KernelIdeal.Frame
import proofs.«140247_j70153995813580_2_alg».proof.Proof.Dots
import Idealize.ShloMosaic.Lib.StableHlo.Run
import Idealize.ShloMosaic.Lib.ValueLayout
import Idealize.ShloMosaic.Lib.Pipeline.Value

noncomputable section

open scoped BigOperators

namespace Cert.KernelIdeal.Prep

open Idealize.ShloMosaic Idealize.ShloMosaic.TcCoe Idealize.SL.Sem Idealize.ShloMosaic.StableHlo
open Idealize.ShloMosaic.ValueIdx Cert.KernelIdeal Cert.KernelIdeal.Gen Cert.KernelIdeal.Dots

variable (m : (ℓ : Loc nD τ sig) → Buf (Elt Ideal) ℓ) (c : Dev nD)

/-- The argument arrays as launched. -/
abbrev a0 : FVec Ideal S2097152x32 .f32 := m ((c.tc : Thread nD τ).loc main_arg0)
abbrev a1 : FVec Ideal S2097152x3 .f32 := m ((c.tc : Thread nD τ).loc main_arg1)
abbrev a2 : FVec Ideal S2097152 .f32 := m ((c.tc : Thread nD τ).loc main_arg2)
abbrev a3 : FVec Ideal S32x64 .f32 := m ((c.tc : Thread nD τ).loc main_arg3)
abbrev a4 : FVec Ideal S64x64 .f32 := m ((c.tc : Thread nD τ).loc main_arg4)
abbrev a5 : FVec Ideal S64x17 .f32 := m ((c.tc : Thread nD τ).loc main_arg5)
abbrev a6 : FVec Ideal S18x64 .f32 := m ((c.tc : Thread nD τ).loc main_arg6)
abbrev a7 : FVec Ideal S64x64 .f32 := m ((c.tc : Thread nD τ).loc main_arg7)
abbrev a8 : FVec Ideal S64x64 .f32 := m ((c.tc : Thread nD τ).loc main_arg8)
abbrev a9 : FVec Ideal S64x3 .f32 := m ((c.tc : Thread nD τ).loc main_arg9)

/-! ## The arrays as terms of the arguments -/

theorem V_v1 : V m c main_v1
    = truncf (F := Ideal) .bf16 (transpose S64x32 [1, 0] (a3 m c) transposes_S32x64_S64x32_1_0) bitsLt_bf16_f32 := by
  show StableHlo.after hostOps0 (fun b => m (c, b)) (Proc.devRef .tc main_v1) = _
  after_results

theorem V_v3 : V m c main_v3
    = truncf (F := Ideal) .bf16 (transpose S64x64 [1, 0] (a4 m c) transposes_S64x64_S64x64_1_0) bitsLt_bf16_f32 := by
  show StableHlo.after hostOps0 (fun b => m (c, b)) (Proc.devRef .tc main_v3) = _
  after_results

theorem V_v4 : V m c main_v4 = extractStridedSlice S64x1 ![0, 0] (a5 m c) slices_S64x17_S64x1_0_0 := by
  show StableHlo.after hostOps0 (fun b => m (c, b)) (Proc.devRef .tc main_v4) = _
  after_results

theorem V_v9 : V m c main_v9
    = truncf (F := Ideal) .bf16 (transpose S64x64 [1, 0]
        (Host.dotGeneral (F := Ideal) dot_S64x15_S15x64_S64x64_1_0_0_1_n_n none
          (extractStridedSlice S64x15 ![0, 2] (a5 m c) slices_S64x17_S64x15_0_2)
          (extractStridedSlice S15x64 ![3, 0] (a6 m c) slices_S18x64_S15x64_3_0))
        transposes_S64x64_S64x64_1_0) bitsLt_bf16_f32 := by
  show StableHlo.after hostOps0 (fun b => m (c, b)) (Proc.devRef .tc main_v9) = _
  after_results

theorem V_v12 : V m c main_v12
    = truncf (F := Ideal) .bf16 (transpose S64x3 [1, 0]
        (extractStridedSlice S3x64 ![0, 0] (a6 m c) slices_S18x64_S3x64_0_0) transposes_S3x64_S64x3_1_0)
        bitsLt_bf16_f32 := by
  show StableHlo.after hostOps0 (fun b => m (c, b)) (Proc.devRef .tc main_v12) = _
  after_results

theorem V_v14 : V m c main_v14
    = truncf (F := Ideal) .bf16 (transpose S64x64 [1, 0] (a7 m c) transposes_S64x64_S64x64_1_0) bitsLt_bf16_f32 := by
  show StableHlo.after hostOps0 (fun b => m (c, b)) (Proc.devRef .tc main_v14) = _
  after_results

theorem V_v16 : V m c main_v16
    = truncf (F := Ideal) .bf16 (transpose S64x64 [1, 0] (a8 m c) transposes_S64x64_S64x64_1_0) bitsLt_bf16_f32 := by
  show StableHlo.after hostOps0 (fun b => m (c, b)) (Proc.devRef .tc main_v16) = _
  after_results

theorem V_v18 : V m c main_v18
    = truncf (F := Ideal) .bf16 (transpose S3x64 [1, 0] (a9 m c) transposes_S64x3_S3x64_1_0) bitsLt_bf16_f32 := by
  show StableHlo.after hostOps0 (fun b => m (c, b)) (Proc.devRef .tc main_v18) = _
  after_results

theorem V_v19 : V m c main_v19 = shapeCast S1x2097152 (a2 m c) shapeCasts_S2097152_S1x2097152 := by
  show StableHlo.after hostOps0 (fun b => m (c, b)) (Proc.devRef .tc main_v19) = _
  after_results
  rfl

/-! ## Read at an index -/

theorem V_v1_apply (j : Fin 64) (k : Fin 32) : (V m c main_v1 : S64x32.Idx → EReal) (ix2 j k) = a3 m c (ix2 k j) :=
  (congrFun (V_v1 m c) (ix2 j k)).trans (transpose_ix2_apply (a3 m c) _ j k)

theorem V_v3_apply (j k : Fin 64) : (V m c main_v3 : S64x64.Idx → EReal) (ix2 j k) = a4 m c (ix2 k j) :=
  (congrFun (V_v3 m c) (ix2 j k)).trans (transpose_ix2_apply (a4 m c) _ j k)

theorem V_v4_apply (k : Fin 64) : (V m c main_v4 : S64x1.Idx → EReal) (ix2 k (0 : Fin 1)) = a5 m c (ix2 k (0 : Fin 17)) :=
  (congrFun (V_v4 m c) (ix2 k (0 : Fin 1))).trans (slice2_axis1_apply 0 (a5 m c) _ k (0 : Fin 1) (0 : Fin 17) rfl)

theorem V_v9_apply (j k : Fin 64) : (V m c main_v9 : S64x64.Idx → EReal) (ix2 j k)
    = ∑ i : Fin 15, a5 m c (ix2 k (⟨2 + i.val, by omega⟩ : Fin 17)) * a6 m c (ix2 (⟨3 + i.val, by omega⟩ : Fin 18) j) := by
  refine (congrFun (V_v9 m c) (ix2 j k)).trans ?_
  rw [truncf_apply]
  refine (transpose_ix2_apply _ _ j k).trans ?_
  refine (dotGeneral_ix2_any pd_fuse none _ _ _ k j).trans ?_
  refine Finset.sum_congr rfl fun i _ => ?_
  rw [slice2_axis1_apply 2 (a5 m c) _ k i (⟨2 + i.val, by omega⟩ : Fin 17) rfl,
    slice2_axis0_apply 3 (a6 m c) _ i j (⟨3 + i.val, by omega⟩ : Fin 18) rfl]

theorem V_v12_apply (j : Fin 64) (i : Fin 3) : (V m c main_v12 : S64x3.Idx → EReal) (ix2 j i)
    = a6 m c (ix2 (⟨i.val, by omega⟩ : Fin 18) j) := by
  refine (congrFun (V_v12 m c) (ix2 j i)).trans ?_
  rw [truncf_apply]
  refine (transpose_ix2_apply _ _ j i).trans ?_
  exact slice2_axis0_apply 0 (a6 m c) _ i j (⟨i.val, by omega⟩ : Fin 18) (Nat.zero_add _).symm

theorem V_v14_apply (j k : Fin 64) : (V m c main_v14 : S64x64.Idx → EReal) (ix2 j k) = a7 m c (ix2 k j) :=
  (congrFun (V_v14 m c) (ix2 j k)).trans (transpose_ix2_apply (a7 m c) _ j k)

theorem V_v16_apply (j k : Fin 64) : (V m c main_v16 : S64x64.Idx → EReal) (ix2 j k) = a8 m c (ix2 k j) :=
  (congrFun (V_v16 m c) (ix2 j k)).trans (transpose_ix2_apply (a8 m c) _ j k)

theorem V_v18_apply (j : Fin 3) (k : Fin 64) : (V m c main_v18 : S3x64.Idx → EReal) (ix2 j k) = a9 m c (ix2 k j) :=
  (congrFun (V_v18 m c) (ix2 j k)).trans (transpose_ix2_apply (a9 m c) _ j k)

theorem V_v19_apply (u : Fin 1) (r : Fin 2097152) : (V m c main_v19 : S1x2097152.Idx → EReal) (ix2 u r) = a2 m c (ix1 r) :=
  (congrFun (V_v19 m c) (ix2 u r)).trans (shapeCast_a_1a_apply (a2 m c) _ u r)

end Cert.KernelIdeal.Prep

end
-- ==== Proof.Blocks.lean ====
/-
  From blocks to the array.  Grid point t handles samples 4096·t .. 4096·t + 4095: it reads those rows of the
  positions and of the view directions, those lanes of the mask row, and every weight array whole, and writes columns
  4096·t .. of the 4 x N output.  So the 4 x N array ends holding, at (column, sample), the per-sample formula; the host
  line after the region transposes it to N x 4.
-/
import proofs.«140247_j70153995813580_2_alg».proof.Proof.Gen.KernelIdeal.Frame
import proofs.«140247_j70153995813580_2_alg».proof.Proof.Body
import proofs.«140247_j70153995813580_2_alg».proof.Proof.Prep
import Idealize.ShloMosaic.Lib.Pipeline.Value
import Idealize.ShloMosaic.Lib.StableHlo.Run

set_option maxRecDepth 16384

noncomputable section

open scoped BigOperators

namespace Cert.KernelIdeal.Blocks

open Idealize.ShloMosaic Idealize.ShloMosaic.TcCoe Idealize.SL.Sem Idealize.ShloMosaic.StableHlo
open Idealize.ShloMosaic.ValueIdx Cert.KernelIdeal Cert.KernelIdeal.Gen Cert.KernelIdeal.Prep Cert.KernelIdeal.Body Cert.Net

variable (m : (ℓ : Loc nD τ sig) → Buf (Elt Ideal) ℓ) (ρ : Dev nD → PrngReg) (c : Dev nD)

/-- Output column col of sample r as the kernel computes it from the argument arrays: the colour head's first layer in
    fused form, over the product of the feature columns with rows 3..17 of the colour matrix. -/
def fusedSample (r : Fin 2097152) (col : Fin 4) : EReal :=
  blend (softplus (∑ k : Fin 64,
      trunk (fun i => a0 m c (ix2 r i)) (fun i j => a3 m c (ix2 i j)) (fun i j => a4 m c (ix2 i j)) k
        * a5 m c (ix2 k (0 : Fin 17))))
    (colour (fusedPre (fun i => a1 m c (ix2 r i))
        (trunk (fun i => a0 m c (ix2 r i)) (fun i j => a3 m c (ix2 i j)) (fun i j => a4 m c (ix2 i j)))
        (fun k j => ∑ i : Fin 15, a5 m c (ix2 k (⟨2 + i.val, by omega⟩ : Fin 17)) * a6 m c (ix2 (⟨3 + i.val, by omega⟩ : Fin 18) j))
        (fun i j => a6 m c (ix2 (⟨i.val, by omega⟩ : Fin 18) j)))
      (fun k j => a7 m c (ix2 k j)) (fun k j => a8 m c (ix2 k j)) (fun k j => a9 m c (ix2 k j)))
    (a2 m c (ix1 r)) col

/-- The 4 x N array the region leaves: entry (column, sample). -/
def outT : S4x2097152.Idx → EReal := fun i => fusedSample m c (i 1) (i 0)

theorem hz : (![0, 0] : Fin 2 → Nat) = fun _ => 0 := funext fun a => by fin_cases a <;> rfl

/-! ## The index maps, decided over the 512 grid points -/

theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_11.index t (0 : Fin 2) = 0 ∧ win0_11.index t (1 : Fin 2) = t.val :=
  (by decide +kernel : ∀ t : Fin grid0.N, _)

theorem idx_w3 : ∀ t : Fin cfg0.N, win0_3.index t (0 : Fin 2) = 0 ∧ win0_3.index t (1 : Fin 2) = 0 :=
  (by decide +kernel : ∀ t : Fin grid0.N, _)

theorem idx_w4 : ∀ t : Fin cfg0.N, win0_4.index t (0 : Fin 2) = 0 ∧ win0_4.index t (1 : Fin 2) = 0 :=
  (by decide +kernel : ∀ t : Fin grid0.N, _)

theorem idx_w5 : ∀ t : Fin cfg0.N, win0_5.index t (0 : Fin 2) = 0 ∧ win0_5.index t (1 : Fin 2) = 0 :=
  (by decide +kernel : ∀ t : Fin grid0.N, _)

theorem idx_w6 : ∀ t : Fin cfg0.N, win0_6.index t (0 : Fin 2) = 0 ∧ win0_6.index t (1 : Fin 2) = 0 :=
  (by decide +kernel : ∀ t : Fin grid0.N, _)

theorem idx_w7 : ∀ t : Fin cfg0.N, win0_7.index t (0 : Fin 2) = 0 ∧ win0_7.index t (1 : Fin 2) = 0 :=
  (by decide +kernel : ∀ t : Fin grid0.N, _)

theorem idx_w8 : ∀ t : Fin cfg0.N, win0_8.index t (0 : Fin 2) = 0 ∧ win0_8.index t (1 : Fin 2) = 0 :=
  (by decide +kernel : ∀ t : Fin grid0.N, _)

theorem idx_w9 : ∀ t : Fin cfg0.N, win0_9.index t (0 : Fin 2) = 0 ∧ win0_9.index t (1 : Fin 2) = 0 :=
  (by decide +kernel : ∀ t : Fin grid0.N, _)

theorem idx_w10 : ∀ t : Fin cfg0.N, win0_10.index t (0 : Fin 2) = 0 ∧ win0_10.index t (1 : Fin 2) = 0 :=
  (by decide +kernel : ∀ t : Fin grid0.N, _)

/-! ## Each window's block at a point, read at an index -/

/-- Row p of point t's block of the positions is row 4096·t + p of the array. -/
theorem rows0 (t : Fin cfg0.N) (p : Fin 4096) (r : Fin 2097152) (hr : r.val = t.val * 4096 + p.val) (i : Fin 32) :
    (iblk m c 0 t : Vec Ideal S4096x32 _) (ix2 p i) = a0 m c (ix2 r i) := by
  obtain ⟨e0, e1, -⟩ := idx_rows t
  show V m c main_arg0 (((cfg0.win 0).blk t).view.emb (ix2 p i)) = _
  rw [V_main_arg0]
  refine congrArg (a0 m c) (funext fun a => Fin.ext ?_)
  match a with
  | ⟨0, _⟩ => show win0_0.index t (0 : Fin 2) * 4096 + 1 * p.val = r.val; omega
  | ⟨1, _⟩ => show win0_0.index t (1 : Fin 2) * 32 + 1 * i.val = i.val; omega

theorem rows1 (t : Fin cfg0.N) (p : Fin 4096) (r : Fin 2097152) (hr : r.val = t.val * 4096 + p.val) (i : Fin 3) :
    (iblk m c 1 t : Vec Ideal S4096x3 _) (ix2 p i) = a1 m c (ix2 r i) := by
  obtain ⟨-, -, e0, e1, -⟩ := idx_rows t
  show V m c main_arg1 (((cfg0.win 1).blk t).view.emb (ix2 p i)) = _
  rw [V_main_arg1]
  refine congrArg (a1 m c) (funext fun a => Fin.ext ?_)
  match a with
  | ⟨0, _⟩ => show win0_1.index t (0 : Fin 2) * 4096 + 1 * p.val = r.val; omega
  | ⟨1, _⟩ => show win0_1.index t (1 : Fin 2) * 3 + 1 * i.val = i.val; omega

/-- Lane p of point t's block of the mask row is sample 4096·t + p of the mask. -/
theorem lanes2 (t : Fin cfg0.N) (p : Fin 4096) (r : Fin 2097152) (hr : r.val = t.val * 4096 + p.val) :
    (iblk m c 2 t : Vec Ideal S1x4096 _) (ix2 (0 : Fin 1) p) = a2 m c (ix1 r) := by
  obtain ⟨-, -, -, -, e0, e1, -⟩ := idx_rows t
  refine Eq.trans ?_ (V_v19_apply m c (0 : Fin 1) r)
  show V m c main_v19 (((cfg0.win 2).blk t).view.emb (ix2 (0 : Fin 1) p)) = _
  refine congrArg (V m c main_v19) (funext fun a => Fin.ext ?_)
  match a with
  | ⟨0, _⟩ => show win0_2.index t (0 : Fin 2) * 1 + 1 * 0 = 0; omega
  | ⟨1, _⟩ => show win0_2.index t (1 : Fin 2) * 4096 + 1 * p.val = r.val; omega

theorem whole3 (t : Fin cfg0.N) (j : Fin 64) (k : Fin 32) :
    (iblk m c 3 t : Vec Ideal S64x32 _) (ix2 j k) = a3 m c (ix2 k j) := by
  obtain ⟨e0, e1⟩ := idx_w3 t
  refine Eq.trans ?_ (V_v1_apply m c j k)
  show V m c main_v1 (((cfg0.win 3).blk t).view.emb (ix2 j k)) = _
  refine congrArg (V m c main_v1) (funext fun a => Fin.ext ?_)
  match a with
  | ⟨0, _⟩ => show win0_3.index t (0 : Fin 2) * 64 + 1 * j.val = j.val; omega
  | ⟨1, _⟩ => show win0_3.index t (1 : Fin 2) * 32 + 1 * k.val = k.val; omega

theorem whole4 (t : Fin cfg0.N) (j : Fin 64) (k : Fin 64) :
    (iblk m c 4 t : Vec Ideal S64x64 _) (ix2 j k) = a4 m c (ix2 k j) := by
  obtain ⟨e0, e1⟩ := idx_w4 t
  refine Eq.trans ?_ (V_v3_apply m c j k)
  show V m c main_v3 (((cfg0.win 4).blk t).view.emb (ix2 j k)) = _
  refine congrArg (V m c main_v3) (funext fun a => Fin.ext ?_)
  match a with
  | ⟨0, _⟩ => show win0_4.index t (0 : Fin 2) * 64 + 1 * j.val = j.val; omega
  | ⟨1, _⟩ => show win0_4.index t (1 : Fin 2) * 64 + 1 * k.val = k.val; omega

theorem whole5 (t : Fin cfg0.N) (j : Fin 64) :
    (iblk m c 5 t : Vec Ideal S64x1 _) (ix2 j (0 : Fin 1)) = a5 m c (ix2 j (0 : Fin 17)) := by
  obtain ⟨e0, e1⟩ := idx_w5 t
  refine Eq.trans ?_ (V_v4_apply m c j)
  show V m c main_v4 (((cfg0.win 5).blk t).view.emb (ix2 j (0 : Fin 1))) = _
  refine congrArg (V m c main_v4) (funext fun a => Fin.ext ?_)
  match a with
  | ⟨0, _⟩ => show win0_5.index t (0 : Fin 2) * 64 + 1 * j.val = j.val; omega
  | ⟨1, _⟩ => show win0_5.index t (1 : Fin 2) * 1 + 1 * 0 = 0; omega

theorem whole6 (t : Fin cfg0.N) (j : Fin 64) (k : Fin 64) :
    (iblk m c 6 t : Vec Ideal S64x64 _) (ix2 j k) = ∑ i : Fin 15, a5 m c (ix2 k (⟨2 + i.val, by omega⟩ : Fin 17)) * a6 m c (ix2 (⟨3 + i.val, by omega⟩ : Fin 18) j) := by
  obtain ⟨e0, e1⟩ := idx_w6 t
  refine Eq.trans ?_ (V_v9_apply m c j k)
  show V m c main_v9 (((cfg0.win 6).blk t).view.emb (ix2 j k)) = _
  refine congrArg (V m c main_v9) (funext fun a => Fin.ext ?_)
  match a with
  | ⟨0, _⟩ => show win0_6.index t (0 : Fin 2) * 64 + 1 * j.val = j.val; omega
  | ⟨1, _⟩ => show win0_6.index t (1 : Fin 2) * 64 + 1 * k.val = k.val; omega

theorem whole7 (t : Fin cfg0.N) (j : Fin 64) (k : Fin 3) :
    (iblk m c 7 t : Vec Ideal S64x3 _) (ix2 j k) = a6 m c (ix2 (⟨k.val, by omega⟩ : Fin 18) j) := by
  obtain ⟨e0, e1⟩ := idx_w7 t
  refine Eq.trans ?_ (V_v12_apply m c j k)
  show V m c main_v12 (((cfg0.win 7).blk t).view.emb (ix2 j k)) = _
  refine congrArg (V m c main_v12) (funext fun a => Fin.ext ?_)
  match a with
  | ⟨0, _⟩ => show win0_7.index t (0 : Fin 2) * 64 + 1 * j.val = j.val; omega
  | ⟨1, _⟩ => show win0_7.index t (1 : Fin 2) * 3 + 1 * k.val = k.val; omega

theorem whole8 (t : Fin cfg0.N) (j : Fin 64) (k : Fin 64) :
    (iblk m c 8 t : Vec Ideal S64x64 _) (ix2 j k) = a7 m c (ix2 k j) := by
  obtain ⟨e0, e1⟩ := idx_w8 t
  refine Eq.trans ?_ (V_v14_apply m c j k)
  show V m c main_v14 (((cfg0.win 8).blk t).view.emb (ix2 j k)) = _
  refine congrArg (V m c main_v14) (funext fun a => Fin.ext ?_)
  match a with
  | ⟨0, _⟩ => show win0_8.index t (0 : Fin 2) * 64 + 1 * j.val = j.val; omega
  | ⟨1, _⟩ => show win0_8.index t (1 : Fin 2) * 64 + 1 * k.val = k.val; omega

theorem whole9 (t : Fin cfg0.N) (j : Fin 64) (k : Fin 64) :
    (iblk m c 9 t : Vec Ideal S64x64 _) (ix2 j k) = a8 m c (ix2 k j) := by
  obtain ⟨e0, e1⟩ := idx_w9 t
  refine Eq.trans ?_ (V_v16_apply m c j k)
  show V m c main_v16 (((cfg0.win 9).blk t).view.emb (ix2 j k)) = _
  refine congrArg (V m c main_v16) (funext fun a => Fin.ext ?_)
  match a with
  | ⟨0, _⟩ => show win0_9.index t (0 : Fin 2) * 64 + 1 * j.val = j.val; omega
  | ⟨1, _⟩ => show win0_9.index t (1 : Fin 2) * 64 + 1 * k.val = k.val; omega

theorem whole10 (t : Fin cfg0.N) (j : Fin 3) (k : Fin 64) :
    (iblk m c 10 t : Vec Ideal S3x64 _) (ix2 j k) = a9 m c (ix2 k j) := by
  obtain ⟨e0, e1⟩ := idx_w10 t
  refine Eq.trans ?_ (V_v18_apply m c j k)
  show V m c main_v18 (((cfg0.win 10).blk t).view.emb (ix2 j k)) = _
  refine congrArg (V m c main_v18) (funext fun a => Fin.ext ?_)
  match a with
  | ⟨0, _⟩ => show win0_10.index t (0 : Fin 2) * 3 + 1 * j.val = j.val; omega
  | ⟨1, _⟩ => show win0_10.index t (1 : Fin 2) * 64 + 1 * k.val = k.val; omega

/-! ## What a point writes back, the cover, the array -/

/-- Point t writes back block t of `outT`. -/
theorem flushed_eq (t : Fin cfg0.N) :
    (dats m 0 c).flushed 11 t = ((cfg0.win 11).blk t).view.read (Elt Ideal) (outT m c) := by
  show (cfg0.win 11).cut (grid0.coords t) ((dats m 0 c).after 11 t) = _
  rw [after0_11]
  unfold out0_11
  rw [View.canon_unit_zero hz]
  simp only [View.ld_unit_zero (S := S4096x32) hz, View.ld_unit_zero (S := S4096x3) hz, View.ld_unit_zero (S := S64x32) hz,
    View.ld_unit_zero (S := S64x64) hz, View.ld_unit_zero (S := S64x1) hz, View.ld_unit_zero (S := S64x3) hz,
    View.ld_unit_zero (S := S3x64) hz, View.ld_unit_zero (S := S1x4096) hz]
  funext y
  obtain ⟨col, p, rfl⟩ : ∃ (col : Fin 4) (p : Fin 4096), y = ix2 col p := ⟨y 0, y 1, eq_ix2 y⟩
  obtain ⟨-, -, -, -, -, -, e0, e1⟩ := idx_rows t
  have ht : t.val < 512 := lt_of_lt_of_eq t.isLt N_0
  obtain ⟨r, hr⟩ : ∃ r : Fin 2097152, r.val = t.val * 4096 + p.val :=
    ⟨⟨t.val * 4096 + p.val, by have := p.isLt; omega⟩, rfl⟩
  have hemb : ((cfg0.win 11).blk t).view.emb (ix2 col p) = ix2 col r := by
    funext a; apply Fin.ext
    match a with
    | ⟨0, _⟩ => show win0_11.index t (0 : Fin 2) * 4 + 1 * col.val = col.val; omega
    | ⟨1, _⟩ => show win0_11.index t (1 : Fin 2) * 4096 + 1 * p.val = r.val; omega
  show k0_pay1 (k0_pay2 (iblk m c 1 t)) (k0_pay4 (iblk m c 0 t) (iblk m c 3 t) (iblk m c 4 t) (iblk m c 5 t))
      (k0_pay5 (iblk m c 0 t) (iblk m c 3 t) (iblk m c 4 t)) (k0_pay6 (iblk m c 6 t)) (iblk m c 7 t) (iblk m c 8 t)
      (iblk m c 9 t) (iblk m c 10 t) (iblk m c 2 t) (ix2 col p)
    = outT m c (((cfg0.win 11).blk t).view.emb (ix2 col p))
  rw [hemb]
  refine (body_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) col p).trans ?_
  show _ = fusedSample m c r col
  unfold fusedSample
  simp only [rows0 m c t p r hr, rows1 m c t p r hr, lanes2 m c t p r hr, whole3, whole4, whole5, whole6, whole7,
    whole8, whole9, whole10]

/-- An index of the 4 x N array is in point t's block iff each coordinate is in the block's range. -/
theorem mem_blk (t : Fin cfg0.N) (i : S4x2097152.Idx) :
    i ∈ ((cfg0.win 11).blk t).view.set ↔ ∀ a : Fin 2, win0_11.index t a * S4x4096.size a ≤ (i a).val
      ∧ (i a).val < win0_11.index t a * S4x4096.size a + S4x4096.size a := by
  show i ∈ ((View.whole main_v20).slice (win0_11.rect t)).set ↔ _
  rw [View.set_slice_whole, Rect.mem_set_unit]
  exact Iff.rfl

/-- Sample r's column of the array is in the block of point r / 4096. -/
theorem cover (i : S4x2097152.Idx) :
    ∃ t : Fin cfg0.N, (cfg0.win 11).flush t = true ∧ i ∈ ((cfg0.win 11).blk t).view.set := by
  have h0 : (i 0).val < 4 := (i 0).isLt
  have h1 : (i 1).val < 2097152 := (i 1).isLt
  let t : Fin cfg0.N := ⟨(i 1).val / 4096, lt_of_lt_of_eq (by omega : (i 1).val / 4096 < 512) N_0.symm⟩
  obtain ⟨-, -, -, -, -, -, e0, e1⟩ := idx_rows t
  have ht : t.val = (i 1).val / 4096 := rfl
  refine ⟨t, flush0_11 t, ?_⟩
  rw [mem_blk]
  intro a
  match a with
  | ⟨0, _⟩ => show win0_11.index t (0 : Fin 2) * 4 ≤ (i 0).val ∧ (i 0).val < win0_11.index t (0 : Fin 2) * 4 + 4; omega
  | ⟨1, _⟩ =>
    show win0_11.index t (1 : Fin 2) * 4096 ≤ (i 1).val ∧ (i 1).val < win0_11.index t (1 : Fin 2) * 4096 + 4096
    omega

/-- The region leaves the 4 x N array at `outT`. -/
theorem final : (dats m 0 c).arrAt 11 cfg0.N = outT m c :=
  (dats m 0 c).arrAt_eq_of_cover 11 (outT m c) (fun t _ => flushed_eq m c t) (cover)

/-! ## The host line after the region, and the run -/

/-- The program's result: the N x 4 array whose entry (sample, column) is the per-sample formula. -/
def result : S2097152x4.Idx → EReal := fun i => fusedSample m c (i 0) (i 1)

theorem tail_eq : Pipeline.afterTail₀ cfgs (dats m) 0 (V0 m) [hostOps1] c main_v21 = result m c := by
  unfold Pipeline.afterTail₀
  show StableHlo.after hostOps1 _ (Proc.devRef .tc main_v21) = _
  after_results
  rw [show Pipeline.withArrays spec0 c (V0 m c) (fun w => (dats m 0 c).arrAt w cfg0.N) (Proc.devRef .tc main_v20) = outT m c from
    (Pipeline.withArrays_arr spec0 launch0.win.arr_inj c _ _ 11).trans (final m c)]
  funext i
  obtain ⟨r, col, rfl⟩ : ∃ (r : Fin 2097152) (col : Fin 4), i = ix2 r col := ⟨i 0, i 1, eq_ix2 i⟩
  exact transpose_ix2_apply (outT m c) _ r col

/-- Every weakly fair execution of the kernel program ends with the result array at `result` and the argument arrays
    unchanged. -/
theorem run : θ_run defs (onTc (τ := τ) (main (F := Ideal))) ⟨m, fun _ => 0, ρ⟩ (fun r => ∀ c : Dev nD,
      r.2.mem ((c.tc : Thread nD τ).loc main_v21) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v21 (Pipeline.mem_restRefs_of main_v21 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Blocks

end
-- ==== Proof.Finite.lean ====
/-
  The precondition, decoded.  It is one conjunction of ten tests, one per argument array, each "every entry's absolute
  value is below +infinity".  Over the extended reals |x| < +infinity says that x is neither infinity, so it is a real
  number.  The arrays the regrouping of the colour head's first layer touches are the positions, the two hidden weight
  matrices, the third layer's matrix and the colour head's first matrix: their entries are real.
-/
import proofs.«140247_j70153995813580_2_alg».proof.Pre_finite_inputs
import proofs.«140247_j70153995813580_2_alg».proof.Proof.LibRealEntries
import Idealize.ShloMosaic.Lib.ReduceAll
import Idealize.ShloMosaic.Lib.Affine
import Idealize.ShloMosaic.Lib.ValueIdx
import Idealize.ShloMosaic.PureOps.Ideal.Laws

noncomputable section

namespace Cert.Finite

open Idealize.ShloMosaic Cert.Pre_finite_inputs Cert.Algebra

instance : Subsingleton S_.Idx := ⟨fun a b => funext fun d => d.elim0⟩

/-- An extended real whose absolute value is below the f32 infinity word's value is a real number. -/
theorem isReal_of_abs_lt (x : EReal)
    (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

variable [Cert.Pre_finite_inputs.Facts]

/-- Where the precondition holds, every entry of the positions, of the two hidden weight matrices, of the third
    layer's matrix and of the colour head's first matrix is a real number. -/
theorem reals_of_pre (a0 : FVec Ideal S2097152x32 .f32) (a1 : FVec Ideal S2097152x3 .f32) (a2 : FVec Ideal S2097152 .f32)
    (a3 : FVec Ideal S32x64 .f32) (a4 : FVec Ideal S64x64 .f32) (a5 : FVec Ideal S64x17 .f32) (a6 : FVec Ideal S18x64 .f32)
    (a7 a8 : FVec Ideal S64x64 .f32) (a9 : FVec Ideal S64x3 .f32)
    (h : fn (F := Ideal) a0 a1 a2 a3 a4 a5 a6 a7 a8 a9 = fun _ => 1#1) :
    (∀ i, IsReal (a0 i)) ∧ (∀ i, IsReal (a3 i)) ∧ (∀ i, IsReal (a4 i)) ∧ (∀ i, IsReal (a5 i)) ∧ (∀ i, IsReal (a6 i)) := by
  have h0 := congrFun h ValueIdx.ix0
  dsimp only [fn, fn_part1, fn_part2] at h0
  simp only [andi, IntOp.andi_eq_one] at h0
  obtain ⟨⟨⟨⟨⟨⟨⟨⟨⟨e0, -⟩, -⟩, e3⟩, e4⟩, e5⟩, e6⟩, -⟩, -⟩, -⟩ := h0
  exact ⟨fun i => isReal_of_abs_lt (a0 i) (Host.reduce_andi_all _ _ _ _ _ e0 i),
    fun i => isReal_of_abs_lt (a3 i) (Host.reduce_andi_all _ _ _ _ _ e3 i),
    fun i => isReal_of_abs_lt (a4 i) (Host.reduce_andi_all _ _ _ _ _ e4 i),
    fun i => isReal_of_abs_lt (a5 i) (Host.reduce_andi_all _ _ _ _ _ e5 i),
    fun i => isReal_of_abs_lt (a6 i) (Host.reduce_andi_all _ _ _ _ _ e6 i)⟩

end Cert.Finite

end
-- ==== Proof.Bridge.lean ====
/-
  The kernel's per-sample formula is the network's.  The two differ only in the colour head's first layer — the kernel
  multiplies the hidden units by the product of the feature columns with rows 3..17 of the colour matrix and adds the
  view coordinates' share, the network joins the view coordinates with the features and multiplies once — and these
  agree when the hidden units and the two matrices are real numbers, which the precondition gives.
-/
import proofs.«140247_j70153995813580_2_alg».proof.Proof.Blocks
import proofs.«140247_j70153995813580_2_alg».proof.Proof.Finite

noncomputable section

open scoped BigOperators

namespace Cert.KernelIdeal.Bridge

open Idealize.ShloMosaic Idealize.ShloMosaic.TcCoe Idealize.SL.Sem Idealize.ShloMosaic.ValueIdx
open Cert.KernelIdeal Cert.KernelIdeal.Prep Cert.KernelIdeal.Blocks Cert.Net Cert.Algebra

variable (m : (ℓ : Loc nD τ sig) → Buf (Elt Ideal) ℓ) (c : Dev nD)

/-- For real positions and real weights of the first three layers and of the colour head's first layer, output column
    col of sample r as the kernel computes it is the network's. -/
theorem fused_eq_sample (h0 : ∀ i, IsReal (a0 m c i)) (h3 : ∀ i, IsReal (a3 m c i)) (h4 : ∀ i, IsReal (a4 m c i))
    (h5 : ∀ i, IsReal (a5 m c i)) (h6 : ∀ i, IsReal (a6 m c i)) (r : Fin 2097152) (col : Fin 4) :
    fusedSample m c r col
      = sample (fun k => a0 m c (ix2 r k)) (fun j => a1 m c (ix2 r j)) (a2 m c (ix1 r)) (fun k j => a3 m c (ix2 k j))
          (fun k j => a4 m c (ix2 k j)) (fun k j => a5 m c (ix2 k j)) (fun k j => a6 m c (ix2 k j))
          (fun k j => a7 m c (ix2 k j)) (fun k j => a8 m c (ix2 k j)) (fun k j => a9 m c (ix2 k j)) col := by
  have hfp : fusedPre (fun i => a1 m c (ix2 r i))
        (trunk (fun i => a0 m c (ix2 r i)) (fun i j => a3 m c (ix2 i j)) (fun i j => a4 m c (ix2 i j)))
        (fun k j => ∑ i : Fin 15, a5 m c (ix2 k (⟨2 + i.val, by omega⟩ : Fin 17)) * a6 m c (ix2 (⟨3 + i.val, by omega⟩ : Fin 18) j))
        (fun i j => a6 m c (ix2 (⟨i.val, by omega⟩ : Fin 18) j))
      = joinedPre (fun j => a1 m c (ix2 r j))
          (trunk (fun k => a0 m c (ix2 r k)) (fun k j => a3 m c (ix2 k j)) (fun k j => a4 m c (ix2 k j)))
          (fun k j => a5 m c (ix2 k j)) (fun k j => a6 m c (ix2 k j)) :=
    funext fun c' => fused_eq_joined (fun j => a1 m c (ix2 r j))
      (trunk (fun k => a0 m c (ix2 r k)) (fun k j => a3 m c (ix2 k j)) (fun k j => a4 m c (ix2 k j)))
      (fun k j => a5 m c (ix2 k j)) (fun k j => a6 m c (ix2 k j))
      (isReal_trunk _ _ _ (fun k => h0 _) (fun k j => h3 _) (fun k j => h4 _)) (fun k j => h5 _) (fun i c'' => h6 _) c'
  exact congrArg (fun f => blend
    (softplus (lin (trunk (fun k => a0 m c (ix2 r k)) (fun k j => a3 m c (ix2 k j)) (fun k j => a4 m c (ix2 k j)))
      (fun k j => a5 m c (ix2 k j)) 0))
    (colour f (fun k j => a7 m c (ix2 k j)) (fun k j => a8 m c (ix2 k j)) (fun k j => a9 m c (ix2 k j)))
    (a2 m c (ix1 r)) col) hfp

end Cert.KernelIdeal.Bridge

end
-- ==== Proof.RefValue.lean ====
/-
  The reference program read at one sample.  Its lines are the network as written: three products with max(·, 0)
  between them, the density column through softplus, the view direction joined with the feature columns, the colour
  head, the logistic function spelt 1 / (1 + e^(-x)), and the blend.  Read at sample r and output column c its result
  is `Net.sample` of row r of the positions, row r of the view directions, entry r of the mask and the weight
  matrices.
-/
import proofs.«140247_j70153995813580_2_alg».proof.Proof.Gen.ReferenceIdeal.Read
import proofs.«140247_j70153995813580_2_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

open scoped BigOperators

namespace Cert.ReferenceIdeal.RefValue

open Idealize.ShloMosaic Idealize.ShloMosaic.ValueIdx Cert.ReferenceIdeal Cert.ReferenceIdeal.Gen Cert.ReferenceIdeal.Read Cert.Net

/-! ## The printed index maps at coordinates -/

theorem lidx_v0 (r : Fin 2097152) (j : Fin 64) (k : Fin 32) : lidx_main_v0 (ix2 r j) k = ix2 r k :=
  funext fun a => Fin.ext (by match a with | ⟨0, _⟩ => rfl | ⟨1, _⟩ => rfl)
theorem ridx_v0 (r : Fin 2097152) (j : Fin 64) (k : Fin 32) : ridx_main_v0 (ix2 r j) k = ix2 k j :=
  funext fun a => Fin.ext (by match a with | ⟨0, _⟩ => rfl | ⟨1, _⟩ => rfl)

theorem lidx_v2 (r : Fin 2097152) (j : Fin 64) (k : Fin 64) : lidx_main_v2 (ix2 r j) k = ix2 r k :=
  funext fun a => Fin.ext (by match a with | ⟨0, _⟩ => rfl | ⟨1, _⟩ => rfl)
theorem ridx_v2 (r : Fin 2097152) (j : Fin 64) (k : Fin 64) : ridx_main_v2 (ix2 r j) k = ix2 k j :=
  funext fun a => Fin.ext (by match a with | ⟨0, _⟩ => rfl | ⟨1, _⟩ => rfl)

theorem lidx_v4 (r : Fin 2097152) (j : Fin 17) (k : Fin 64) : lidx_main_v4 (ix2 r j) k = ix2 r k :=
  funext fun a => Fin.ext (by match a with | ⟨0, _⟩ => rfl | ⟨1, _⟩ => rfl)
theorem ridx_v4 (r : Fin 2097152) (j : Fin 17) (k : Fin 64) : ridx_main_v4 (ix2 r j) k = ix2 k j :=
  funext fun a => Fin.ext (by match a with | ⟨0, _⟩ => rfl | ⟨1, _⟩ => rfl)

theorem lidx_v10 (r : Fin 2097152) (j : Fin 64) (k : Fin 18) : lidx_main_v10 (ix2 r j) k = ix2 r k :=
  funext fun a => Fin.ext (by match a with | ⟨0, _⟩ => rfl | ⟨1, _⟩ => rfl)
theorem ridx_v10 (r : Fin 2097152) (j : Fin 64) (k : Fin 18) : ridx_main_v10 (ix2 r j) k = ix2 k j :=
  funext fun a => Fin.ext (by match a with | ⟨0, _⟩ => rfl | ⟨1, _⟩ => rfl)

theorem lidx_v12 (r : Fin 2097152) (j : Fin 64) (k : Fin 64) : lidx_main_v12 (ix2 r j) k = ix2 r k :=
  funext fun a => Fin.ext (by match a with | ⟨0, _⟩ => rfl | ⟨1, _⟩ => rfl)
theorem ridx_v12 (r : Fin 2097152) (j : Fin 64) (k : Fin 64) : ridx_main_v12 (ix2 r j) k = ix2 k j :=
  funext fun a => Fin.ext (by match a with | ⟨0, _⟩ => rfl | ⟨1, _⟩ => rfl)

theorem lidx_v14 (r : Fin 2097152) (j : Fin 64) (k : Fin 64) : lidx_main_v14 (ix2 r j) k = ix2 r k :=
  funext fun a => Fin.ext (by match a with | ⟨0, _⟩ => rfl | ⟨1, _⟩ => rfl)
theorem ridx_v14 (r : Fin 2097152) (j : Fin 64) (k : Fin 64) : ridx_main_v14 (ix2 r j) k = ix2 k j :=
  funext fun a => Fin.ext (by match a with | ⟨0, _⟩ => rfl | ⟨1, _⟩ => rfl)

theorem lidx_v16 (r : Fin 2097152) (j : Fin 3) (k : Fin 64) : lidx_main_v16 (ix2 r j) k = ix2 r k :=
  funext fun a => Fin.ext (by match a with | ⟨0, _⟩ => rfl | ⟨1, _⟩ => rfl)
theorem ridx_v16 (r : Fin 2097152) (j : Fin 3) (k : Fin 64) : ridx_main_v16 (ix2 r j) k = ix2 k j :=
  funext fun a => Fin.ext (by match a with | ⟨0, _⟩ => rfl | ⟨1, _⟩ => rfl)

theorem idx_density (r : Fin 2097152) : idx_main_v5 (idx_main_v6 (ix1 r)) = ix2 r (0 : Fin 17) :=
  funext fun a => Fin.ext (by match a with | ⟨0, _⟩ => exact Nat.div_one _ | ⟨1, _⟩ => rfl)
theorem idx_features (r : Fin 2097152) (j : Fin 15) : idx_main_v8 (ix2 r j) = ix2 r (⟨2 + j.val, by omega⟩ : Fin 17) :=
  funext fun a => Fin.ext (by match a with | ⟨0, _⟩ => rfl | ⟨1, _⟩ => rfl)
theorem idx_mask_col (r : Fin 2097152) (c : Fin 3) : idx_main_v24 (idx_main_v25 (ix2 r c)) = ix1 r :=
  funext fun a => Fin.ext (by match a with | ⟨0, _⟩ => rfl)
theorem idx_ratio_col (r : Fin 2097152) (c : Fin 3) : idx_main_v30 (idx_main_v31 (ix2 r c)) = ix1 r :=
  funext fun a => Fin.ext (by match a with | ⟨0, _⟩ => rfl)
theorem idx_total_col (r : Fin 2097152) (u : Fin 1) : idx_main_v33 (ix2 r u) = ix1 r :=
  funext fun a => Fin.ext (by match a with | ⟨0, _⟩ => rfl)

/-- The f32 word of 1.0 is the real 1. -/
theorem one_word : Ideal.ofBits .f32 0x3F800000#32 = 1 := IdealRules.sign_bit.ideal_onePat .f32

/-! ## The stages at a sample -/

section

variable (x0 : (⟨S2097152x32, .f32⟩ : BufTy).Contents (Elt Ideal)) (x1 : (⟨S2097152x3, .f32⟩ : BufTy).Contents (Elt Ideal))
  (x2 : (⟨S2097152, .f32⟩ : BufTy).Contents (Elt Ideal)) (x3 : (⟨S32x64, .f32⟩ : BufTy).Contents (Elt Ideal))
  (x4 : (⟨S64x64, .f32⟩ : BufTy).Contents (Elt Ideal)) (x5 : (⟨S64x17, .f32⟩ : BufTy).Contents (Elt Ideal))
  (x6 : (⟨S18x64, .f32⟩ : BufTy).Contents (Elt Ideal)) (x7 x8 : (⟨S64x64, .f32⟩ : BufTy).Contents (Elt Ideal))
  (x9 : (⟨S64x3, .f32⟩ : BufTy).Contents (Elt Ideal))

/-- The hidden units of sample r. -/
abbrev hid (r : Fin 2097152) : Fin 64 → EReal :=
  trunk (fun k => x0 (ix2 r k)) (fun k j => x3 (ix2 k j)) (fun k j => x4 (ix2 k j))

theorem first_layer (r : Fin 2097152) (j : Fin 64) :
    val_main_v1 (F := Ideal) x0 x3 (ix2 r j) = relu (lin (fun k => x0 (ix2 r k)) (fun k j => x3 (ix2 k j)) j) := by
  rw [val_main_v1_apply, val_main_v0_apply, val_main_call0_v0_apply, val_main_call0_cst_apply]
  simp only [lidx_v0, ridx_v0, Ideal.maximumf_def, Ideal.ofBits_def, Ideal.ofBits_zero_f32]
  rfl

theorem second_layer (r : Fin 2097152) (j : Fin 64) :
    val_main_v3 (F := Ideal) x0 x3 x4 (ix2 r j) = hid x0 x3 x4 r j := by
  rw [val_main_v3_apply, val_main_v2_apply, val_main_call1_v0_apply, val_main_call1_cst_apply]
  simp only [lidx_v2, ridx_v2, first_layer, Ideal.maximumf_def, Ideal.ofBits_def, Ideal.ofBits_zero_f32]
  rfl

theorem third_layer (r : Fin 2097152) (j : Fin 17) :
    val_main_v4 (F := Ideal) x0 x3 x4 x5 (ix2 r j) = lin (hid x0 x3 x4 r) (fun k j => x5 (ix2 k j)) j := by
  rw [val_main_v4_apply]
  simp only [lidx_v4, ridx_v4, second_layer]
  rfl

theorem density (r : Fin 2097152) :
    val_main_v7 (F := Ideal) x0 x3 x4 x5 (ix1 r) = softplus (lin (hid x0 x3 x4 r) (fun k j => x5 (ix2 k j)) 0) := by
  have h6 : val_main_v6 (F := Ideal) x0 x3 x4 x5 (ix1 r) = lin (hid x0 x3 x4 r) (fun k j => x5 (ix2 k j)) 0 := by
    rw [val_main_v6_apply, val_main_v5_apply, idx_density, third_layer]
  simp only [val_main_v7_apply, val_main_call2_v4_apply, val_main_call2_v3_apply, val_main_call2_v2_apply,
    val_main_call2_v6_apply, val_main_call2_v5_apply, val_main_call2_v11_apply, val_main_call2_v1_apply,
    val_main_call2_v0_apply, val_main_call2_v10_apply, val_main_call2_v9_apply, val_main_call2_v8_apply,
    val_main_call2_v7_apply, val_main_call2_cst_apply, h6, Ideal.cmpf_def, Ideal.subf_def, Ideal.addf_def,
    Ideal.maximumf_def, Ideal.hostUnary_exp_def, Ideal.hostUnary_log1p_def, Ideal.hostNegf_def, Ideal.hostAbsf_def,
    Ideal.negf_def, Ideal.absf_def, Ideal.ofBits_def, Ideal.ofBits_zero_f32]
  exact softplus_neg _

theorem features (r : Fin 2097152) (j : Fin 15) :
    val_main_v8 (F := Ideal) x0 x3 x4 x5 (ix2 r j) = geo (lin (hid x0 x3 x4 r) (fun k j => x5 (ix2 k j))) j := by
  rw [val_main_v8_apply, idx_features, third_layer]
  rfl

theorem joined (r : Fin 2097152) (i : Fin 18) :
    val_main_v9 (F := Ideal) x0 x1 x3 x4 x5 (ix2 r i)
      = cat (fun j => x1 (ix2 r j)) (geo (lin (hid x0 x3 x4 r) (fun k j => x5 (ix2 k j)))) i := by
  unfold val_main_v9 cat
  by_cases h : i.val < 3
  · rw [dif_pos h]
    exact concatenate_pair_apply_left (s₁ := S2097152x3) (s₂ := S2097152x15) 1 x1 _ _ (ix2 r i) rfl (ix2 r (⟨i.val, h⟩ : Fin 3))
      (fun b => by match b with | ⟨0, _⟩ => rfl | ⟨1, _⟩ => rfl)
  · rw [dif_neg h]
    refine (concatenate_pair_apply_right (s₁ := S2097152x3) (s₂ := S2097152x15) 1 x1 _ _ (ix2 r i) rfl rfl (ix2 r (⟨i.val - 3, by omega⟩ : Fin 15))
      (fun b hb => by
        match b with
        | ⟨0, _⟩ => rfl
        | ⟨1, _⟩ => exact absurd rfl hb)
      (by show i.val - 3 + 3 = i.val; omega)).trans ?_
    exact features x0 x3 x4 x5 r _

theorem colour_pre (r : Fin 2097152) (j : Fin 64) :
    val_main_v10 (F := Ideal) x0 x1 x3 x4 x5 x6 (ix2 r j)
      = joinedPre (fun j => x1 (ix2 r j)) (hid x0 x3 x4 r) (fun k j => x5 (ix2 k j)) (fun k j => x6 (ix2 k j)) j := by
  rw [val_main_v10_apply]
  simp only [lidx_v10, ridx_v10, joined]
  rfl

theorem colour_head (r : Fin 2097152) (c : Fin 3) :
    val_main_v22 (F := Ideal) x0 x1 x3 x4 x5 x6 x7 x8 x9 (ix2 r c)
      = colour (joinedPre (fun j => x1 (ix2 r j)) (hid x0 x3 x4 r) (fun k j => x5 (ix2 k j)) (fun k j => x6 (ix2 k j)))
          (fun k j => x7 (ix2 k j)) (fun k j => x8 (ix2 k j)) (fun k j => x9 (ix2 k j)) c := by
  simp only [val_main_v22_apply, val_main_v21_apply, val_main_cst_0_apply, val_main_v20_apply, val_main_v19_apply,
    val_main_cst_apply, val_main_v18_apply, val_main_v17_apply, val_main_v16_apply, lidx_v16, ridx_v16,
    val_main_v15_apply, val_main_call5_v0_apply, val_main_call5_cst_apply, val_main_v14_apply, lidx_v14, ridx_v14,
    val_main_v13_apply, val_main_call4_v0_apply, val_main_call4_cst_apply, val_main_v12_apply, lidx_v12, ridx_v12,
    val_main_v11_apply, val_main_call3_v0_apply, val_main_call3_cst_apply, colour_pre,
    Ideal.hostDivf_def, Ideal.addf_def, Ideal.hostUnary_exp_def, Ideal.hostNegf_def, Ideal.negf_def, Ideal.maximumf_def,
    Ideal.ofBits_def, Ideal.ofBits_zero_f32, one_word]
  rfl

/-- The reference's result at sample r, column c. -/
theorem result_apply (r : Fin 2097152) (c : Fin 4) :
    val_main_v34 (F := Ideal) x0 x1 x2 x3 x4 x5 x6 x7 x8 x9 (ix2 r c)
      = sample (fun k => x0 (ix2 r k)) (fun j => x1 (ix2 r j)) (x2 (ix1 r)) (fun k j => x3 (ix2 k j))
          (fun k j => x4 (ix2 k j)) (fun k j => x5 (ix2 k j)) (fun k j => x6 (ix2 k j)) (fun k j => x7 (ix2 k j))
          (fun k j => x8 (ix2 k j)) (fun k j => x9 (ix2 k j)) c := by
  unfold val_main_v34 sample blend
  by_cases h : c.val < 3
  · rw [dif_pos h]
    refine (concatenate_pair_apply_left (s₁ := S2097152x3) (s₂ := S2097152x1) 1 _ _ _ (ix2 r c) rfl (ix2 r (⟨c.val, h⟩ : Fin 3))
      (fun b => by match b with | ⟨0, _⟩ => rfl | ⟨1, _⟩ => rfl)).trans ?_
    simp only [val_main_v32_apply, val_main_v31_apply, val_main_v30_apply, idx_ratio_col, val_main_v29_apply,
      val_main_v28_apply, val_main_v27_apply, val_main_cst_1_apply, val_main_v26_apply, val_main_v25_apply,
      val_main_v24_apply, idx_mask_col, val_main_v23_apply, density, colour_head, Ideal.mulf_def, Ideal.addf_def,
      Ideal.hostDivf_def, Ideal.ofBits_def]
    rfl
  · rw [dif_neg h]
    refine (concatenate_pair_apply_right (s₁ := S2097152x3) (s₂ := S2097152x1) 1 _ _ _ (ix2 r c) rfl rfl (ix2 r (0 : Fin 1))
      (fun b hb => by
        match b with
        | ⟨0, _⟩ => rfl
        | ⟨1, _⟩ => exact absurd rfl hb)
      (by show 0 + 3 = c.val; omega)).trans ?_
    simp only [val_main_v33_apply, idx_total_col, val_main_v28_apply, val_main_v27_apply, val_main_cst_1_apply,
      val_main_v23_apply, density, Ideal.mulf_def, Ideal.addf_def, Ideal.ofBits_def]
    rfl

end

end Cert.ReferenceIdeal.RefValue

end
-- ==== Proof.lean ====
/-
  A radiance-field network on two million samples: two hidden layers, a density through softplus, a colour head fed by
  the view direction and fifteen features, and the blend (σ/(σ + ε)) · (colour · mask) beside σ + ε.  The kernel works on
  blocks of 4096 samples with the samples along the lanes (every product is weights times activations), folds the
  feature columns into the colour head's first matrix before the call, and writes a 4 x N array that the host
  transposes; the reference is the network line by line on N x · arrays.

  Over the extended reals a change of float format is the identity and both matrix products are plain finite sums, so
  the two programs differ in the order of factors, in the spelling of softplus and of the logistic function, and in the
  fold.  The fold moves a sum across a sum — distributivity — and holds because the precondition makes every entry of
  the positions and of the weights a real number.  The three frames are the generated ones (the reference's is its
  generated run with the result dropped); no operation was rewritten by the idealization, so its soundness claim is
  trivial.
-/
import proofs.«140247_j70153995813580_2_alg».proof.Defs
import proofs.«140247_j70153995813580_2_alg».proof.Proof.Gen.Kernel
import proofs.«140247_j70153995813580_2_alg».proof.Proof.Gen.Kernel.Skeleton
import proofs.«140247_j70153995813580_2_alg».proof.Proof.Gen.Kernel.Launch
import proofs.«140247_j70153995813580_2_alg».proof.Proof.Gen.Kernel.Points
import proofs.«140247_j70153995813580_2_alg».proof.Proof.Gen.Kernel.Frame
import proofs.«140247_j70153995813580_2_alg».proof.Proof.Gen.KernelIdeal
import proofs.«140247_j70153995813580_2_alg».proof.Proof.Gen.KernelIdeal.Skeleton
import proofs.«140247_j70153995813580_2_alg».proof.Proof.Gen.KernelIdeal.Launch
import proofs.«140247_j70153995813580_2_alg».proof.Proof.Gen.KernelIdeal.Points
import proofs.«140247_j70153995813580_2_alg».proof.Proof.Gen.KernelIdeal.Frame
import proofs.«140247_j70153995813580_2_alg».proof.Proof.Gen.ReferenceIdeal
import proofs.«140247_j70153995813580_2_alg».proof.Proof.Gen.Pre_finite_inputs
import proofs.«140247_j70153995813580_2_alg».proof.Proof.Gen.ReferenceIdeal.Run
import proofs.«140247_j70153995813580_2_alg».proof.Proof.Gen.ReferenceIdeal.Read
import proofs.«140247_j70153995813580_2_alg».proof.Proof.Bridge
import proofs.«140247_j70153995813580_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

theorem frame_referenceIdeal :
    @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both programs end with the N x 4 array whose entry (sample, column) is the network's output there. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  obtain ⟨h0, h3, h4, h5, h6⟩ := Cert.Finite.reals_of_pre _ _ _ _ _ _ _ _ _ _ (hpre c)
  rw [Cert.ReferenceIdeal.Read.val_main_v34_eq, e0, e1, e2, e3, e4, e5, e6, e7, e8, e9]
  funext i
  obtain ⟨r, col, rfl⟩ : ∃ (r : Fin 2097152) (col : Fin 4), i = ix2 r col := ⟨i 0, i 1, eq_ix2 i⟩
  rw [Cert.ReferenceIdeal.RefValue.result_apply]
  exact (Cert.KernelIdeal.Bridge.fused_eq_sample m c h0 h3 h4 h5 h6 r col).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
